-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S32x512 : Shape := ⟨2, ![32, 512]⟩
abbrev S512x32 : Shape := ⟨2, ![512, 32]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S64x512x28x28 .f32) (main_arg1 : FVec F S32x512 .f32) (main_arg2 : FVec F S512x32 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  main_v13
-- ==== Kernel.lean ====
abbrev S64x512x28x28 : Shape := ⟨4, ![64, 512, 28, 28]⟩
abbrev S32x512 : Shape := ⟨2, ![32, 512]⟩
abbrev S512x32 : Shape := ⟨2, ![512, 32]⟩
abbrev S28x28x64x512 : Shape := ⟨4, ![28, 28, 64, 512]⟩
abbrev S28x28x8x512 : Shape := ⟨4, ![28, 28, 8, 512]⟩
abbrev S8x512 : Shape := ⟨2, ![8, 512]⟩
abbrev S8x32 : Shape := ⟨2, ![8, 32]⟩
abbrev S1x1x8x512 : Shape := ⟨4, ![1, 1, 8, 512]⟩

abbrev nBuf : Space → Nat
  | .hbm => 8
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S32x512, .f32⟩
  | .hbm, ⟨2, _⟩ => ⟨S512x32, .f32⟩
  | .hbm, ⟨3, _⟩ => ⟨S28x28x64x512, .f32⟩
  | .hbm, ⟨4, _⟩ => ⟨S512x32, .f32⟩
  | .hbm, ⟨5, _⟩ => ⟨S32x512, .f32⟩
  | .hbm, ⟨6, _⟩ => ⟨S28x28x64x512, .f32⟩
  | .hbm, ⟨7, _⟩ => ⟨S64x512x28x28, .f32⟩
  | .local _ .vmem, ⟨0, _⟩ => ⟨S28x28x8x512, .f32⟩
  | .local _ .vmem, ⟨1, _⟩ => ⟨S28x28x8x512, .f32⟩
  | .local _ .vmem, ⟨2, _⟩ => ⟨S512x32, .f32⟩
  | .local _ .vmem, ⟨3, _⟩ => ⟨S32x512, .f32⟩
  | .local _ .vmem, ⟨4, _⟩ => ⟨S28x28x8x512, .f32⟩
  | .local _ .vmem, ⟨5, _⟩ => ⟨S28x28x8x512, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S28x28x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S28x28x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x512x28x28_S28x28x64x512_2_3_0_1 : S64x512x28x28.Transposes [2, 3, 0, 1] S28x28x64x512
  transposes_S32x512_S512x32_1_0 : S32x512.Transposes [1, 0] S512x32
  transposes_S512x32_S32x512_1_0 : S512x32.Transposes [1, 0] S32x512
  inb_S28x28x8x512_S28x28x8x512_0_0_0_0 : ∀ a, (![0, 0, 0, 0] : Fin 4 → Nat) a + S28x28x8x512.size a ≤ S28x28x8x512.size a
  h_S28x28x8x512 : 0 < S28x28x8x512.numel
  shapeCasts_S28x28x8x512_S28x28x8x512 : S28x28x8x512.ShapeCasts S28x28x8x512
  reduces_S28x28x8x512_S8x512 : S28x28x8x512.Reduces [0, 1] S8x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  shapeCasts_S8x512_S1x1x8x512 : S8x512.ShapeCasts S1x1x8x512
  broadcasts_S1x1x8x512_S28x28x8x512 : S1x1x8x512.Broadcasts S28x28x8x512
  transposes_S28x28x64x512_S64x512x28x28_2_3_0_1 : S28x28x64x512.Transposes [2, 3, 0, 1] S64x512x28x28
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x28x8x512.size a ≤ S28x28x64x512.size a
  hwx0_0 : ∀ i : grid0.Coords, EltTy.bits .f32 = 32 ∨ (Rect.block (s := S28x28x64x512) S28x28x8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S28x28x8x512.size a ≤ S28x28x64x512.size a
  hwx0_3 : ∀ i : grid0.Coords, EltTy.bits .f32 = 32 ∨ (Rect.block (s := S28x28x64x512) S28x28x8x512.size (cc0_transform_3 i) (hinb0_3 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_v0) S28x28x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S28x28x8x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x28x28 : Shape := ⟨4, ![64, 512, 28, 28]⟩
abbrev S32x512 : Shape := ⟨2, ![32, 512]⟩
abbrev S512x32 : Shape := ⟨2, ![512, 32]⟩
abbrev S64x512x784 : Shape := ⟨3, ![64, 512, 784]⟩
abbrev S5x512x784 : Shape := ⟨3, ![5, 512, 784]⟩
abbrev S5x512 : Shape := ⟨2, ![5, 512]⟩
abbrev S5x32 : Shape := ⟨2, ![5, 32]⟩
abbrev S5x512x1 : Shape := ⟨3, ![5, 512, 1]⟩

abbrev nBuf : Space → Nat
  | .hbm => 8
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S32x512, .f32⟩
  | .hbm, ⟨2, _⟩ => ⟨S512x32, .f32⟩
  | .hbm, ⟨3, _⟩ => ⟨S512x32, .f32⟩
  | .hbm, ⟨4, _⟩ => ⟨S32x512, .f32⟩
  | .hbm, ⟨5, _⟩ => ⟨S64x512x784, .f32⟩
  | .hbm, ⟨6, _⟩ => ⟨S64x512x784, .f32⟩
  | .hbm, ⟨7, _⟩ => ⟨S64x512x28x28, .f32⟩
  | .local _ .vmem, ⟨0, _⟩ => ⟨S5x512x784, .f32⟩
  | .local _ .vmem, ⟨1, _⟩ => ⟨S5x512x784, .f32⟩
  | .local _ .vmem, ⟨2, _⟩ => ⟨S512x32, .f32⟩
  | .local _ .vmem, ⟨3, _⟩ => ⟨S32x512, .f32⟩
  | .local _ .vmem, ⟨4, _⟩ => ⟨S5x512x784, .f32⟩
  | .local _ .vmem, ⟨5, _⟩ => ⟨S5x512x784, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5x512x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x512_S512x32_1_0 : S32x512.Transposes [1, 0] S512x32
  transposes_S512x32_S32x512_1_0 : S512x32.Transposes [1, 0] S32x512
  shapeCasts_S64x512x28x28_S64x512x784 : S64x512x28x28.ShapeCasts S64x512x784
  inb_S5x512x784_S5x512x784_0_0_0 : ∀ a, (![0, 0, 0] : Fin 3 → Nat) a + S5x512x784.size a ≤ S5x512x784.size a
  h_S5x512x784 : 0 < S5x512x784.numel
  shapeCasts_S5x512x784_S5x512x784 : S5x512x784.ShapeCasts S5x512x784
  reduces_S5x512x784_S5x512 : S5x512x784.Reduces [2] S5x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  shapeCasts_S5x512_S5x512x1 : S5x512.ShapeCasts S5x512x1
  broadcasts_S5x512x1_S5x512x784 : S5x512x1.Broadcasts S5x512x784
  shapeCasts_S64x512x784_S64x512x28x28 : S64x512x784.ShapeCasts S64x512x28x28
  dot_S5x512_S512x32_S5x32_1_0_0_1_n_n_wf : DotDims.WF S5x512 S512x32 S5x32 [1] [0] [0] [1] [] []
  dot_S5x32_S32x512_S5x512_1_0_0_1_n_n_wf : DotDims.WF S5x32 S32x512 S5x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S5x512x784.size a < S64x512x784.size a
  hwx0_0 : ∀ i : grid0.Coords, EltTy.bits .f32 = 32 ∨ (Rect.unit (s := S64x512x784) (fun a => cc0_transform_0 i a * S5x512x784.size a) (fun a => (Pipeline.Clip.of (cc0_transform_0 i a) (S5x512x784.size a) (S64x512x784.size a)).extent (S5x512x784.size a)) fun a => Pipeline.Clip.inb (Pipeline.Clip.ok_of (hstart0_0 i a))).WholeWords (EltTy.packing .f32)
  hwxs0_0 : ∀ i : grid0.Coords, EltTy.bits .f32 = 32 ∨ (Rect.unit (s := S5x512x784) (fun _ => 0) (fun a => (Pipeline.Clip.of (cc0_transform_0 i a) (S5x512x784.size a) (S64x512x784.size a)).extent (S5x512x784.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S5x512x784.size a < S64x512x784.size a
  hwx0_3 : ∀ i : grid0.Coords, EltTy.bits .f32 = 32 ∨ (Rect.unit (s := S64x512x784) (fun a => cc0_transform_3 i a * S5x512x784.size a) (fun a => (Pipeline.Clip.of (cc0_transform_3 i a) (S5x512x784.size a) (S64x512x784.size a)).extent (S5x512x784.size a)) fun a => Pipeline.Clip.inb (Pipeline.Clip.ok_of (hstart0_3 i a))).WholeWords (EltTy.packing .f32)
  hwxs0_3 : ∀ i : grid0.Coords, EltTy.bits .f32 = 32 ∨ (Rect.unit (s := S5x512x784) (fun _ => 0) (fun a => (Pipeline.Clip.of (cc0_transform_3 i a) (S5x512x784.size a) (S64x512x784.size a)).extent (S5x512x784.size a)) fun a => (Nat.zero_add _).trans_le (Pipeline.Clip.extent_le (Pipeline.Clip.ok_of (hstart0_3 i a)))).WholeWords (EltTy.packing .f32)

variable [Facts₀]

def dot_S5x512_S512x32_S5x32_1_0_0_1_n_n : DotDims S5x512 S512x32 S5x32 where
  lhsContracting := [1]
  rhsContracting := [0]
  lhsNonContracting := [0]
  rhsNonContracting := [1]
  lhsBatch := []
  rhsBatch := []
  wf := dot_S5x512_S512x32_S5x32_1_0_0_1_n_n_wf
def dot_S5x32_S32x512_S5x512_1_0_0_1_n_n : DotDims S5x32 S32x512 S5x512 where
  lhsContracting := [1]
  rhsContracting := [0]
  lhsNonContracting := [0]
  rhsNonContracting := [1]
  lhsBatch := []
  rhsBatch := []
  wf := dot_S5x32_S32x512_S5x512_1_0_0_1_n_n_wf

abbrev win0_0 : Pipeline.Window sig grid0 :=
  Pipeline.Window.ofSpecClip (Memref.whole main_v2) S5x512x784.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v3) S5x512x784.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Gate.lean ====
/-
  The squeeze-and-excitation gate as ONE function of the three argument arrays, over the extended reals.

  For an image `b` and a channel `c` the spatial sum `pool x b c = ∑ h w, x[b, c, h, w]` is scaled by the
  f32 word both programs multiply it by (the rounded 1/784, the same word on both sides, so it is never
  evaluated), passed through the first layer and a rectifier,
  `hidden r w1 j = max (∑ c, (r c * invHW) * w1[j, c]) 0`, then through the second layer and the logistic
  function, `gate r w1 w2 c = logistic (∑ j, hidden r w1 j * w2[c, j])`, and the result scales the input:
  `out x w1 w2 [b, c, h, w] = x[b, c, h, w] * gate (pool x b) w1 w2 c`.
  A row of a block depends on that row alone: `gate` takes the ROW of pooled sums, which is what lets a block
  that overhangs its array compute garbage in the overhanging row without touching the rows inside.
-/
import Idealize.ShloMosaic.PureOps.Ideal
import Idealize.ShloMosaic.PureOps.Ideal.Laws
import Idealize.ShloMosaic.Lib.ValueIdx

noncomputable section

open scoped BigOperators

namespace SEGate

open Idealize.ShloMosaic Idealize.ShloMosaic.ValueIdx

abbrev SX : Shape := ⟨4, ![64, 512, 28, 28]⟩
abbrev SW1 : Shape := ⟨2, ![32, 512]⟩
abbrev SW2 : Shape := ⟨2, ![512, 32]⟩

/-- The factor of the mean: the f32 word `0x3AA72F05` (1/784 rounded), read as the extended real it denotes. -/
def invHW : EReal := Ideal.ofBits .f32 0x3AA72F05#32

/-- Hidden unit `j` of the excitation, from a row `r` of pooled SUMS (one per channel): the scaled row through the
    first layer, rectified. -/
def hidden (r : Fin 512 → EReal) (w1 : FVec Ideal SW1 .f32) (j : Fin 32) : EReal :=
  max (∑ c : Fin 512, (r c * invHW) * w1 (ix2 j c)) 0

/-- The gate of channel `c`: the hidden units through the second layer and the logistic function. -/
def gate (r : Fin 512 → EReal) (w1 : FVec Ideal SW1 .f32) (w2 : FVec Ideal SW2 .f32) (c : Fin 512) : EReal :=
  Ideal.logistic (∑ j : Fin 32, hidden r w1 j * w2 (ix2 c j))

/-- The spatial sum of channel `c` of image `b`. -/
def pool (x : FVec Ideal SX .f32) (b : Fin 64) (c : Fin 512) : EReal :=
  ∑ h : Fin 28, ∑ w : Fin 28, x (ix4 b c h w)

/-- The result array: the input scaled, channel by channel, by its image's gate. -/
def out (x : FVec Ideal SX .f32) (w1 : FVec Ideal SW1 .f32) (w2 : FVec Ideal SW2 .f32) : FVec Ideal SX .f32 :=
  fun i => x i * gate (pool x (i 0)) w1 w2 (i 1)

theorem out_apply (x : FVec Ideal SX .f32) (w1 : FVec Ideal SW1 .f32) (w2 : FVec Ideal SW2 .f32)
    (b : Fin 64) (c : Fin 512) (h : Fin 28) (w : Fin 28) :
    out x w1 w2 (ix4 b c h w) = x (ix4 b c h w) * gate (pool x b) w1 w2 c := rfl

end SEGate

end
-- ==== Proof.KernelLayout.lean ====
/-
  The layout operations of the excitation gate, each read at an index given by its coordinates.

  A [b, c] array viewed as [1, 1, b, c] keeps every element where it is in row-major order, so it reads (b, c) at
  (0, 0, b, c); a [1, 1, 8, 512] array repeated over two leading axes of 28 reads its one plane at every (p, q); the
  two rank-four transpositions used around the kernel, [n, c, p, q] → [p, q, n, c] and back, exchange the leading
  pair of coordinates with the trailing pair.
-/
import Idealize.ShloMosaic.Lib.Pipeline.Value
import Idealize.ShloMosaic.Lib.ValueIdx

noncomputable section

namespace SEGate.Layout

open Idealize.ShloMosaic Idealize.ShloMosaic.ValueIdx

variable {α : Type}

/-- A `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A `[1, 1, 8, 512]` array broadcast to `[28, 28, 8, 512]` reads, at `(p, q, i, j)`, the operand at `(0, 0, i, j)`. -/
theorem broadcastTo_11ab_pqab_apply (v : (⟨4, ![1, 1, 8, 512]⟩ : Shape).Idx → α)
    (h : (⟨4, ![1, 1, 8, 512]⟩ : Shape).Broadcasts ⟨4, ![28, 28, 8, 512]⟩) (p q : Fin 28) (i : Fin 8) (j : Fin 512) :
    broadcastTo ⟨4, ![28, 28, 8, 512]⟩ v h (ix4 p q i j) = v (ix4 (0 : Fin 1) (0 : Fin 1) i j) :=
  broadcastTo_apply v h (ix4 p q i j) (ix4 (0 : Fin 1) (0 : Fin 1) i j) fun ax =>
    match ax with
    | ⟨0, _⟩ => rfl
    | ⟨1, _⟩ => rfl
    | ⟨2, _⟩ => rfl
    | ⟨3, _⟩ => rfl

/-- An `[n, c, p, q]` array transposed by `[2, 3, 0, 1]` reads, at `(i, j, k, l)`, the operand at `(k, l, i, j)`. -/
theorem transpose_2301_apply {n c p q : ℕ} (x : (⟨4, ![n, c, p, q]⟩ : Shape).Idx → α)
    (h : (⟨4, ![n, c, p, q]⟩ : Shape).Transposes [2, 3, 0, 1] ⟨4, ![p, q, n, c]⟩) (i : Fin p) (j : Fin q) (k : Fin n) (l : Fin c) :
    transpose ⟨4, ![p, q, n, c]⟩ [2, 3, 0, 1] x h (ix4 i j k l) = x (ix4 k l i j) :=
  transpose_apply _ x h _ _ fun d => match d with | ⟨0, _⟩ => rfl | ⟨1, _⟩ => rfl | ⟨2, _⟩ => rfl | ⟨3, _⟩ => rfl

end SEGate.Layout

end
-- ==== Proof.KernelHost.lean ====
/-
  The host operations around the region, read at an index.

  Before the region the program transposes its three arguments: the activations [64, 512, 28, 28] to
  [28, 28, 64, 512] (spatial axes first), and each weight matrix to its transpose. The region therefore finds, at
  (p, q, n, c), the activation of image `n`, channel `c`, position (p, q); at (k, j) of the first weight array the
  first layer's weight of hidden unit `j` on channel `k`; at (j, c) of the second the second layer's weight of channel
  `c` on hidden unit `j`. After the region one transposition takes the region's [28, 28, 64, 512] result back to
  [64, 512, 28, 28].
-/
import proofs.«121475_g2000605780834191_pallasbulk_681_8_alg».proof.Proof.Gen.KernelIdeal.Frame
import proofs.«121475_g2000605780834191_pallasbulk_681_8_alg».proof.Proof.KernelLayout
import Idealize.ShloMosaic.Lib.Pipeline.Value
import Idealize.ShloMosaic.Lib.ValueIdx
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The arrays as the region finds them -/

/-- The activations, spatial axes first. -/
theorem V_v0 (c : Dev nD) : (V m c main_v0 : S28x28x64x512.Idx → EReal)
    = transpose S28x28x64x512 [2, 3, 0, 1] (m ((c : Thread nD τ).loc main_arg0)) transposes_S64x512x28x28_S28x28x64x512_2_3_0_1 := by
  show StableHlo.after hostOps0 (fun b => m (c, b)) (Proc.devRef .tc main_v0) = _
  after_results

/-- The first layer's weights, transposed. -/
theorem V_v1 (c : Dev nD) : (V m c main_v1 : S512x32.Idx → EReal)
    = transpose S512x32 [1, 0] (m ((c : Thread nD τ).loc main_arg1)) transposes_S32x512_S512x32_1_0 := by
  show StableHlo.after hostOps0 (fun b => m (c, b)) (Proc.devRef .tc main_v1) = _
  after_results

/-- The second layer's weights, transposed. -/
theorem V_v2 (c : Dev nD) : (V m c main_v2 : S32x512.Idx → EReal)
    = transpose S32x512 [1, 0] (m ((c : Thread nD τ).loc main_arg2)) transposes_S512x32_S32x512_1_0 := by
  show StableHlo.after hostOps0 (fun b => m (c, b)) (Proc.devRef .tc main_v2) = _
  after_results

theorem V_v0_apply (c : Dev nD) (p q : Fin 28) (n : Fin 64) (ch : Fin 512) :
    (V m c main_v0 : S28x28x64x512.Idx → EReal) (ix4 p q n ch) = m ((c : Thread nD τ).loc main_arg0) (ix4 n ch p q) :=
  (congrFun (V_v0 m c) (ix4 p q n ch)).trans (SEGate.Layout.transpose_2301_apply _ _ p q n ch)

theorem V_v1_apply (c : Dev nD) (k : Fin 512) (j : Fin 32) :
    (V m c main_v1 : S512x32.Idx → EReal) (ix2 k j) = m ((c : Thread nD τ).loc main_arg1) (ix2 j k) :=
  (congrFun (V_v1 m c) (ix2 k j)).trans (transpose_ix2_apply _ _ k j)

theorem V_v2_apply (c : Dev nD) (j : Fin 32) (ch : Fin 512) :
    (V m c main_v2 : S32x512.Idx → EReal) (ix2 j ch) = m ((c : Thread nD τ).loc main_arg2) (ix2 ch j) :=
  (congrFun (V_v2 m c) (ix2 j ch)).trans (transpose_ix2_apply _ _ j ch)

/-! ## The result after the lines that follow the region -/

/-- The result buffer ends at the transposition of what the region left in its output array. -/
theorem tail_v4 (c : Dev nD) :
    Pipeline.afterTail₀ cfgs (dats m) 0 (V0 m) [hostOps1] c main_v4
      = transpose S64x512x28x28 [2, 3, 0, 1] ((dats m 0 c).arrAt 3 cfg0.N : S28x28x64x512.Idx → EReal)
          transposes_S28x28x64x512_S64x512x28x28_2_3_0_1 := by
  unfold Pipeline.afterTail₀
  show StableHlo.after hostOps1 _ (Proc.devRef .tc main_v4) = _
  after_results
  rw [Pipeline.withArrays_arr spec0 launch0.win.arr_inj c _ _ 3]

end Cert.KernelIdeal.KValue

end
-- ==== Proof.KernelReduce.lean ====
/-
  The sum over the two leading axes of a rank-four array, read at an index of the two trailing axes.

  A reduction over several axes is, by definition, the sum of the source over the set of indices whose kept
  coordinates are the result index. For the axes 0 and 1 of a [28, 28, 8, 512] array that set is the image of
  the pairs (a, a') under (a, a') ↦ (a, a', b, c), so the sum is the double sum over a and a'.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace SEGate.Sum2

open Idealize.ShloMosaic Idealize.ShloMosaic.ValueIdx

abbrev S4 : Shape := ⟨4, ![28, 28, 8, 512]⟩
abbrev S2 : Shape := ⟨2, ![8, 512]⟩

/-- Dropping the two leading coordinates of (a, a', b, c) leaves (b, c). -/
theorem drop_ix4 (h : S4.Reduces [0, 1] S2) (a a' : Fin 28) (b : Fin 8) (c : Fin 512) :
    h.drop (ix4 a a' b c) = ix2 b c := by
  funext d
  apply Fin.ext
  match d with
  | ⟨0, _⟩ => exact h.drop_apply_val_of_eq (ix4 a a' b c) 0 2
  | ⟨1, _⟩ => exact h.drop_apply_val_of_eq (ix4 a a' b c) 1 3

/-- An index that drops to (b, c) is (i 0, i 1, b, c). -/
theorem eq_of_drop (h : S4.Reduces [0, 1] S2) (i : S4.Idx) (b : Fin 8) (c : Fin 512) (hi : h.drop i = ix2 b c) :
    i = ix4 (i 0) (i 1) b c := by
  have e2 : (i 2).val = b.val := (h.drop_apply_val_of_eq i 0 2).symm.trans (congrArg (fun j : S2.Idx => (j 0).val) hi)
  have e3 : (i 3).val = c.val := (h.drop_apply_val_of_eq i 1 3).symm.trans (congrArg (fun j : S2.Idx => (j 1).val) hi)
  funext d
  apply Fin.ext
  match d with
  | ⟨0, _⟩ => rfl
  | ⟨1, _⟩ => rfl
  | ⟨2, _⟩ => exact e2
  | ⟨3, _⟩ => exact e3

/-- The sum over the indices that drop to (b, c) is the double sum over the two leading coordinates. -/
theorem reduceAdd_apply (h : S4.Reduces [0, 1] S2) (x : S4.Idx → EReal) (b : Fin 8) (c : Fin 512) :
    Ideal.reduceAdd h x (ix2 b c) = ∑ a : Fin 28, ∑ a' : Fin 28, x (ix4 a a' b c) := by
  unfold Ideal.reduceAdd
  refine Eq.trans ?_ (Fintype.sum_prod_type' (fun (a a' : Fin 28) => x (ix4 a a' b c)))
  refine Finset.sum_nbij' (fun i => ((i 0, i 1) : Fin 28 × Fin 28)) (fun p => (ix4 p.1 p.2 b c : S4.Idx)) ?_ ?_ ?_ ?_ ?_
  · intro i _; exact Finset.mem_univ _
  · intro p _; exact Finset.mem_filter.2 ⟨Finset.mem_univ _, drop_ix4 h p.1 p.2 b c⟩
  · intro i hi; exact (eq_of_drop h i b c (Finset.mem_filter.1 hi).2).symm
  · intro p _; rfl
  · intro i hi; exact congrArg x (eq_of_drop h i b c (Finset.mem_filter.1 hi).2)

/-- The same for the vector operation the kernel body applies, with the accumulator the zero word. -/
theorem multiReduction_apply (h : S4.Reduces [0, 1] S2) (hφ : FKind.Formats .f32)
    (hacc : (0x00000000#32 : BitVec 32) = 0x00000000#32) (src : FVec Ideal S4 .f32) (b : Fin 8) (c : Fin 512) :
    multiReduction .add [0, 1] S2 src 0x00000000#32 h hφ hacc (ix2 b c) = ∑ a : Fin 28, ∑ a' : Fin 28, src (ix4 a a' b c) :=
  reduceAdd_apply h src b c

end SEGate.Sum2

end
-- ==== Proof.KernelPayload.lean ====
/-
  The value the kernel body stores, read at one element of its block.

  From the three blocks it loads — a [28, 28, 8, 512] slab `x0` of the activations (spatial axes first), the whole
  first-layer weights `x1` laid [512, 32] and the whole second-layer weights `x2` laid [32, 512] — the body computes,
  for each of the slab's 8 images `b`: the channel sums over the 28 × 28 positions, times the f32 word of the mean
  (left as a word: it is never evaluated); the 32 rectified first-layer units; the 512 second-layer units through the
  logistic function; and stores the slab scaled, position by position, by the gate of its image and channel. Read
  at (p, q, b, c) that is `x0 (p, q, b, c)` times the gate of channel `c` computed from image `b`'s row of channel sums,
  which is exactly the specification's `gate` once the two weight blocks are read as the transposed weights.
-/
import proofs.«121475_g2000605780834191_pallasbulk_681_8_alg».proof.Proof.Gen.KernelIdeal.Skeleton
import proofs.«121475_g2000605780834191_pallasbulk_681_8_alg».proof.Proof.Gate
import proofs.«121475_g2000605780834191_pallasbulk_681_8_alg».proof.Proof.KernelReduce
import proofs.«121475_g2000605780834191_pallasbulk_681_8_alg».proof.Proof.KernelLayout
import Idealize.ShloMosaic.Lib.Pipeline.Value
import Idealize.ShloMosaic.Lib.ValueIdx
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-! ## The two matrix products at an index -/

/-- The first layer's contraction: [8, 512] with [512, 32] over the 512 channels. -/
abbrev D1 : DotDims S8x512 S512x32 S8x32 := dot_S8x512_S512x32_S8x32_1_0_0_1_n_n
/-- The second layer's contraction: [8, 32] with [32, 512] over the 32 hidden units. -/
abbrev D2 : DotDims S8x32 S32x512 S8x512 := dot_S8x32_S32x512_S8x512_1_0_0_1_n_n

/-- The first product, [8, 512] · [512, 32] into zeros: at (b, j) the sum over the 512 channels. -/
theorem matmul1_apply (lhs : FVec Ideal S8x512 .f32) (rhs : FVec Ideal S512x32 .f32) (b : Fin 8) (j : Fin 32) :
    matmul D1 none lhs rhs (constant (F := Ideal) S8x32 .f32 0x00000000#32) (ix2 b j)
      = ∑ k : Fin 512, lhs (ix2 b k) * rhs (ix2 k j) := by
  refine (Ideal.matmul_constant_zero_apply D1 none lhs rhs (ix2 b j)).trans ?_
  refine (Equiv.sum_comp (contrEquiv1 D1 512 rfl rfl).symm _).symm.trans ?_
  refine Finset.sum_congr rfl fun k _ => ?_
  have el : D1.lhsIdx (ix2 b j)
      ((contrEquiv1 D1 512 rfl rfl).symm k) = ix2 b k := by
    funext a; apply Fin.ext
    match a with
    | ⟨0, _⟩ => rfl
    | ⟨1, _⟩ => exact (D1.lhsIdx_val_of_single rfl _ _).trans (contrEquiv1_symm_val D1 512 rfl rfl k)
  have er : D1.rhsIdx (ix2 b j)
      ((contrEquiv1 D1 512 rfl rfl).symm k) = ix2 k j := by
    funext a; apply Fin.ext
    match a with
    | ⟨0, _⟩ => exact (D1.rhsIdx_val_of_single rfl _ _).trans (contrEquiv1_symm_val D1 512 rfl rfl k)
    | ⟨1, _⟩ => rfl
  rw [el, er]

/-- The second product, [8, 32] · [32, 512] into zeros: at (b, c) the sum over the 32 hidden units. -/
theorem matmul2_apply (lhs : FVec Ideal S8x32 .f32) (rhs : FVec Ideal S32x512 .f32) (b : Fin 8) (c : Fin 512) :
    matmul D2 none lhs rhs (constant (F := Ideal) S8x512 .f32 0x00000000#32) (ix2 b c)
      = ∑ j : Fin 32, lhs (ix2 b j) * rhs (ix2 j c) := by
  refine (Ideal.matmul_constant_zero_apply D2 none lhs rhs (ix2 b c)).trans ?_
  refine (Equiv.sum_comp (contrEquiv1 D2 32 rfl rfl).symm _).symm.trans ?_
  refine Finset.sum_congr rfl fun k _ => ?_
  have el : D2.lhsIdx (ix2 b c)
      ((contrEquiv1 D2 32 rfl rfl).symm k) = ix2 b k := by
    funext a; apply Fin.ext
    match a with
    | ⟨0, _⟩ => rfl
    | ⟨1, _⟩ => exact (D2.lhsIdx_val_of_single rfl _ _).trans (contrEquiv1_symm_val D2 32 rfl rfl k)
  have er : D2.rhsIdx (ix2 b c)
      ((contrEquiv1 D2 32 rfl rfl).symm k) = ix2 k c := by
    funext a; apply Fin.ext
    match a with
    | ⟨0, _⟩ => exact (D2.rhsIdx_val_of_single rfl _ _).trans (contrEquiv1_symm_val D2 32 rfl rfl k)
    | ⟨1, _⟩ => rfl
  rw [el, er]

/-! ## The stages of the body, named -/

/-- The channel sums of each image of the slab, times the word of the mean. -/
def pooledV (x0 : FVec Ideal S28x28x8x512 .f32) : FVec Ideal S8x512 .f32 :=
  mulf (multiReduction .add [0, 1] S8x512 (shapeCast S28x28x8x512 x0 shapeCasts_S28x28x8x512_S28x28x8x512) 0x00000000#32
      reduces_S28x28x8x512_S8x512 (.inl rfl) rfl)
    (broadcast S8x512 (Scalar.ofBits .f32 0x3AA72F05#32))

/-- The rectified first-layer units of each image. -/
def hiddenV (x0 : FVec Ideal S28x28x8x512 .f32) (x1 : FVec Ideal S512x32 .f32) : FVec Ideal S8x32 .f32 :=
  maximumf (matmul D1 none (pooledV x0) (shapeCast S512x32 x1 shapeCasts_S512x32_S512x32)
      (constant S8x32 .f32 0x00000000#32))
    (broadcast S8x32 (Scalar.ofBits .f32 0x00000000#32))

/-- The gates of each image: the second layer through the logistic function. -/
def gateV (x0 : FVec Ideal S28x28x8x512 .f32) (x1 : FVec Ideal S512x32 .f32) (x2 : FVec Ideal S32x512 .f32) : FVec Ideal S8x512 .f32 :=
  logistic (matmul D2 none (hiddenV x0 x1) (shapeCast S32x512 x2 shapeCasts_S32x512_S32x512)
    (constant S8x512 .f32 0x00000000#32))

/-- The stored value is the slab times the gates repeated over the spatial positions. -/
theorem pay_eq (x0 : FVec Ideal S28x28x8x512 .f32) (x1 : FVec Ideal S512x32 .f32) (x2 : FVec Ideal S32x512 .f32) :
    k0_pay1 (F := Ideal) x0 x1 x2
      = mulf (shapeCast S28x28x8x512 x0 shapeCasts_S28x28x8x512_S28x28x8x512)
          (broadcastTo S28x28x8x512 (shapeCast S1x1x8x512 (gateV x0 x1 x2) shapeCasts_S8x512_S1x1x8x512)
            broadcasts_S1x1x8x512_S28x28x8x512) := rfl

/-! ## Each stage at an index -/

theorem pooledV_apply (x0 : FVec Ideal S28x28x8x512 .f32) (b : Fin 8) (k : Fin 512) :
    pooledV x0 (ix2 b k) = (∑ a : Fin 28, ∑ a' : Fin 28, x0 (ix4 a a' b k)) * SEGate.invHW := by
  unfold pooledV
  rw [shapeCast_self]
  exact congrArg (fun t => t * SEGate.invHW)
    (SEGate.Sum2.multiReduction_apply reduces_S28x28x8x512_S8x512 (.inl rfl) rfl x0 b k)

theorem hiddenV_apply (x0 : FVec Ideal S28x28x8x512 .f32) (x1 : FVec Ideal S512x32 .f32) (r : Fin 512 → EReal)
    (w1 : FVec Ideal SEGate.SW1 .f32) (b : Fin 8)
    (hr : ∀ k : Fin 512, ∑ a : Fin 28, ∑ a' : Fin 28, x0 (ix4 a a' b k) = r k)
    (h1 : ∀ (k : Fin 512) (j : Fin 32), x1 (ix2 k j) = w1 (ix2 j k)) (j : Fin 32) :
    hiddenV x0 x1 (ix2 b j) = SEGate.hidden r w1 j := by
  unfold hiddenV SEGate.hidden
  rw [shapeCast_self]
  refine (maximumf_apply _ _ _).trans ?_
  refine congrArg₂ max ?_ Ideal.ofBits_zero_f32
  refine (matmul1_apply _ _ b j).trans ?_
  refine Finset.sum_congr rfl fun k _ => ?_
  rw [pooledV_apply, hr, h1]

theorem gateV_apply (x0 : FVec Ideal S28x28x8x512 .f32) (x1 : FVec Ideal S512x32 .f32) (x2 : FVec Ideal S32x512 .f32)
    (r : Fin 512 → EReal) (w1 : FVec Ideal SEGate.SW1 .f32) (w2 : FVec Ideal SEGate.SW2 .f32) (b : Fin 8)
    (hr : ∀ k : Fin 512, ∑ a : Fin 28, ∑ a' : Fin 28, x0 (ix4 a a' b k) = r k)
    (h1 : ∀ (k : Fin 512) (j : Fin 32), x1 (ix2 k j) = w1 (ix2 j k))
    (h2 : ∀ (j : Fin 32) (c : Fin 512), x2 (ix2 j c) = w2 (ix2 c j)) (c : Fin 512) :
    gateV x0 x1 x2 (ix2 b c) = SEGate.gate r w1 w2 c := by
  unfold gateV SEGate.gate
  rw [shapeCast_self]
  refine congrArg Ideal.logistic ?_
  refine (matmul2_apply _ _ b c).trans ?_
  refine Finset.sum_congr rfl fun j _ => ?_
  rw [hiddenV_apply x0 x1 r w1 b hr h1 j, h2]

/-- THE STORED VALUE AT (p, q, b, c): the slab's element times the specification's gate of channel `c`, taken from
    image `b`'s row `r` of channel sums and the weights `w1`, `w2` whose transposes the two weight blocks are. -/
theorem pay_apply (x0 : FVec Ideal S28x28x8x512 .f32) (x1 : FVec Ideal S512x32 .f32) (x2 : FVec Ideal S32x512 .f32)
    (r : Fin 512 → EReal) (w1 : FVec Ideal SEGate.SW1 .f32) (w2 : FVec Ideal SEGate.SW2 .f32) (b : Fin 8)
    (hr : ∀ k : Fin 512, ∑ a : Fin 28, ∑ a' : Fin 28, x0 (ix4 a a' b k) = r k)
    (h1 : ∀ (k : Fin 512) (j : Fin 32), x1 (ix2 k j) = w1 (ix2 j k))
    (h2 : ∀ (j : Fin 32) (c : Fin 512), x2 (ix2 j c) = w2 (ix2 c j)) (p q : Fin 28) (c : Fin 512) :
    k0_pay1 (F := Ideal) x0 x1 x2 (ix4 p q b c) = x0 (ix4 p q b c) * SEGate.gate r w1 w2 c := by
  rw [pay_eq, shapeCast_self]
  refine (mulf_apply _ _ _).trans ?_
  refine congrArg (fun t => x0 (ix4 p q b c) * t) ?_
  refine (SEGate.Layout.broadcastTo_11ab_pqab_apply _ _ p q b c).trans ?_
  refine (SEGate.Layout.shapeCast_ab_11ab_apply _ _ 0 0 b c).trans ?_
  exact gateV_apply x0 x1 x2 r w1 w2 b hr h1 h2 c

end Cert.KernelIdeal.KValue

end
-- ==== Proof.KernelBlocks.lean ====
/-
  From the blocks the grid points write back to the region's whole output array.

  Grid point `t` (of 8) works on the 8 images 8t … 8t + 7: its input slab is the block of the spatial-first activations
  at image rows 8t + b, the two weight blocks are the whole transposed weight arrays at every point, and what it writes
  back is the block of the output array at the same image rows. By the value of the body at one element, that block
  is the block of ONE function of the arguments — the specification's result with the spatial axes first —, and since
  point ⌊n / 8⌋ covers image row `n`, the blocks tile the array: the array ends holding that function.
-/
import proofs.«121475_g2000605780834191_pallasbulk_681_8_alg».proof.Proof.Gen.KernelIdeal.Frame
import proofs.«121475_g2000605780834191_pallasbulk_681_8_alg».proof.Proof.Gate
import proofs.«121475_g2000605780834191_pallasbulk_681_8_alg».proof.Proof.KernelPayload
import proofs.«121475_g2000605780834191_pallasbulk_681_8_alg».proof.Proof.KernelHost
import Idealize.ShloMosaic.Lib.Pipeline.Value
import Idealize.ShloMosaic.Lib.ValueIdx

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## The specification with the spatial axes first -/

/-- The region's output array as one function of the arguments: at (p, q, n, c) the specification's result of image
    `n`, channel `c`, position (p, q). -/
def outT (x : FVec Ideal SEGate.SX .f32) (w1 : FVec Ideal SEGate.SW1 .f32) (w2 : FVec Ideal SEGate.SW2 .f32) :
    S28x28x64x512.Idx → EReal :=
  fun i => SEGate.out x w1 w2 (ix4 (i 2) (i 3) (i 0) (i 1))

theorem outT_apply (x : FVec Ideal SEGate.SX .f32) (w1 : FVec Ideal SEGate.SW1 .f32) (w2 : FVec Ideal SEGate.SW2 .f32)
    (p q : Fin 28) (n : Fin 64) (ch : Fin 512) : outT x w1 w2 (ix4 p q n ch) = SEGate.out x w1 w2 (ix4 n ch p q) := rfl

/-! ## The body's value at one element, from what its three blocks hold -/

/-- If the slab's image `b` is image `n` of the activations `x` (spatial axes first) and the two weight blocks are the
    transposed weights, the stored value at (p, q, b, c) is the specification's result at (n, c, p, q): the slab's
    channel sums over the positions are the pooled sums of image `n`. -/
theorem point_value (x : FVec Ideal SEGate.SX .f32) (w1 : FVec Ideal SEGate.SW1 .f32) (w2 : FVec Ideal SEGate.SW2 .f32)
    (x0 : FVec Ideal S28x28x8x512 .f32) (x1 : FVec Ideal S512x32 .f32) (x2 : FVec Ideal S32x512 .f32) (n : Fin 64) (b : Fin 8)
    (h0 : ∀ (p q : Fin 28) (ch : Fin 512), x0 (ix4 p q b ch) = x (ix4 n ch p q))
    (h1 : ∀ (k : Fin 512) (j : Fin 32), x1 (ix2 k j) = w1 (ix2 j k))
    (h2 : ∀ (j : Fin 32) (ch : Fin 512), x2 (ix2 j ch) = w2 (ix2 ch j)) (p q : Fin 28) (ch : Fin 512) :
    k0_pay1 (F := Ideal) x0 x1 x2 (ix4 p q b ch) = SEGate.out x w1 w2 (ix4 n ch p q) := by
  have hr : ∀ k : Fin 512, ∑ a : Fin 28, ∑ a' : Fin 28, x0 (ix4 a a' b k) = SEGate.pool x n k := fun k => by
    unfold SEGate.pool
    exact Finset.sum_congr rfl fun a _ => Finset.sum_congr rfl fun a' _ => h0 a a' k
  rw [pay_apply x0 x1 x2 (SEGate.pool x n) w1 w2 b hr h1 h2 p q ch, h0, SEGate.out_apply]

variable (m : (ℓ : Loc nD τ sig) → Buf (Elt Ideal) ℓ)

/-! ## The index maps, decided over the grid -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The slab and the output block move along the image axis with the point; the weight blocks do not move. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = 0 ∧ win0_3.index t (1 : Fin 4) = 0 ∧ win0_3.index t (2 : Fin 4) = t.val ∧ win0_3.index t (3 : Fin 4) = 0 :=
  (by decide +kernel : ∀ t : Fin grid0.N, _)

/-! ## The input blocks at a point, element by element -/

/-- The slab at point `t`: at (p, q, b, ch) the activation of image 8t + b, channel `ch`, position (p, q). -/
theorem iblk0_apply (c : Dev nD) (t : Fin cfg0.N) (p q : Fin 28) (b : Fin 8) (ch : Fin 512) (n : Fin 64)
    (hn : n.val = t.val * 8 + b.val) :
    (iblk m c 0 t : S28x28x8x512.Idx → EReal) (ix4 p q b ch) = m ((c : Thread nD τ).loc main_arg0) (ix4 n ch p q) := by
  have e : ((cfg0.win 0).blk t).view.emb (ix4 p q b ch) = (ix4 p q n ch : S28x28x64x512.Idx) := by
    obtain ⟨e0, e1, e2, e3, -⟩ := idx_facts t
    funext a; apply Fin.ext
    match a with
    | ⟨0, _⟩ => show win0_0.index t (0 : Fin 4) * 28 + 1 * p.val = p.val; omega
    | ⟨1, _⟩ => show win0_0.index t (1 : Fin 4) * 28 + 1 * q.val = q.val; omega
    | ⟨2, _⟩ => show win0_0.index t (2 : Fin 4) * 8 + 1 * b.val = n.val; omega
    | ⟨3, _⟩ => show win0_0.index t (3 : Fin 4) * 512 + 1 * ch.val = ch.val; omega
  show (V m c main_v0 : S28x28x64x512.Idx → EReal) (((cfg0.win 0).blk t).view.emb (ix4 p q b ch)) = _
  exact (congrArg (V m c main_v0 : S28x28x64x512.Idx → EReal) e).trans (V_v0_apply m c p q n ch)

/-- The first weight block at any point: the whole transposed first-layer weights. -/
theorem iblk1_apply (c : Dev nD) (t : Fin cfg0.N) (k : Fin 512) (j : Fin 32) :
    (iblk m c 1 t : S512x32.Idx → EReal) (ix2 k j) = m ((c : Thread nD τ).loc main_arg1) (ix2 j k) := by
  have e : ((cfg0.win 1).blk t).view.emb (ix2 k j) = (ix2 k j : S512x32.Idx) := by
    obtain ⟨-, -, -, -, e0, e1, -⟩ := idx_facts t
    funext a; apply Fin.ext
    match a with
    | ⟨0, _⟩ => show win0_1.index t (0 : Fin 2) * 512 + 1 * k.val = k.val; omega
    | ⟨1, _⟩ => show win0_1.index t (1 : Fin 2) * 32 + 1 * j.val = j.val; omega
  show (V m c main_v1 : S512x32.Idx → EReal) (((cfg0.win 1).blk t).view.emb (ix2 k j)) = _
  exact (congrArg (V m c main_v1 : S512x32.Idx → EReal) e).trans (V_v1_apply m c k j)

/-- The second weight block at any point: the whole transposed second-layer weights. -/
theorem iblk2_apply (c : Dev nD) (t : Fin cfg0.N) (j : Fin 32) (ch : Fin 512) :
    (iblk m c 2 t : S32x512.Idx → EReal) (ix2 j ch) = m ((c : Thread nD τ).loc main_arg2) (ix2 ch j) := by
  have e : ((cfg0.win 2).blk t).view.emb (ix2 j ch) = (ix2 j ch : S32x512.Idx) := by
    obtain ⟨-, -, -, -, -, -, e0, e1, -⟩ := idx_facts t
    funext a; apply Fin.ext
    match a with
    | ⟨0, _⟩ => show win0_2.index t (0 : Fin 2) * 32 + 1 * j.val = j.val; omega
    | ⟨1, _⟩ => show win0_2.index t (1 : Fin 2) * 512 + 1 * ch.val = ch.val; omega
  show (V m c main_v2 : S32x512.Idx → EReal) (((cfg0.win 2).blk t).view.emb (ix2 j ch)) = _
  exact (congrArg (V m c main_v2 : S32x512.Idx → EReal) e).trans (V_v2_apply m c j ch)

/-! ## What a point writes back -/

/-- The region's output array, as a function of the launch contents of the three arguments. -/
abbrev result (c : Dev nD) : S28x28x64x512.Idx → EReal :=
  outT (m ((c : Thread nD τ).loc main_arg0)) (m ((c : Thread nD τ).loc main_arg1)) (m ((c : Thread nD τ).loc main_arg2))

/-- The body's value on the blocks at point `t`, at an element `y` of the block, is `result` at the array index of `y`. -/
theorem blk_value (c : Dev nD) (t : Fin cfg0.N) (y : S28x28x8x512.Idx) :
    k0_pay1 (F := Ideal) (iblk m c 0 t) (iblk m c 1 t) (iblk m c 2 t) y = result m c (((cfg0.win 3).blk t).view.emb y) := by
  obtain ⟨p, q, b, ch, rfl⟩ : ∃ (p q : Fin 28) (b : Fin 8) (ch : Fin 512), y = ix4 p q b ch := ⟨y 0, y 1, y 2, y 3, eq_ix4 y⟩
  have ht : t.val < 8 := by have h : t.val < grid0.N := t.isLt; have hN : grid0.N = 8 := N_0; omega
  have e : ((cfg0.win 3).blk t).view.emb (ix4 p q b ch) = (ix4 p q (⟨t.val * 8 + b.val, by omega⟩ : Fin 64) ch : S28x28x64x512.Idx) := by
    obtain ⟨-, -, -, -, -, -, -, -, e0, e1, e2, e3⟩ := idx_facts t
    funext a; apply Fin.ext
    match a with
    | ⟨0, _⟩ => show win0_3.index t (0 : Fin 4) * 28 + 1 * p.val = p.val; omega
    | ⟨1, _⟩ => show win0_3.index t (1 : Fin 4) * 28 + 1 * q.val = q.val; omega
    | ⟨2, _⟩ => show win0_3.index t (2 : Fin 4) * 8 + 1 * b.val = t.val * 8 + b.val; omega
    | ⟨3, _⟩ => show win0_3.index t (3 : Fin 4) * 512 + 1 * ch.val = ch.val; omega
  refine Eq.trans ?_ (congrArg (result m c) e).symm
  exact point_value (m ((c : Thread nD τ).loc main_arg0)) (m ((c : Thread nD τ).loc main_arg1)) (m ((c : Thread nD τ).loc main_arg2))
    (iblk m c 0 t) (iblk m c 1 t) (iblk m c 2 t) ⟨t.val * 8 + b.val, by omega⟩ b
    (fun p q ch => iblk0_apply m c t p q b ch ⟨t.val * 8 + b.val, by omega⟩ rfl)
    (fun k j => iblk1_apply m c t k j) (fun j ch => iblk2_apply m c t j ch) p q ch

/-- WHAT POINT `t` WRITES BACK is block `t` of `result`. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz4]
  simp only [View.ld_unit_zero (S := S28x28x8x512) hz4, View.ld_unit_zero (S := S512x32) hz2, View.ld_unit_zero (S := S32x512) hz2]
  funext y
  exact blk_value m c t y

/-! ## The cover, and the whole array -/

/-- An index of the array is in point `t`'s block iff each coordinate is in the block's range on its axis. -/
theorem mem_blk3 (t : Fin cfg0.N) (i : S28x28x64x512.Idx) :
    i ∈ ((cfg0.win 3).blk t).view.set ↔ ∀ a : Fin 4, win0_3.index t a * S28x28x8x512.size a ≤ (i a).val ∧ (i a).val < win0_3.index t a * S28x28x8x512.size a + S28x28x8x512.size a := by
  show i ∈ ((View.whole main_v3).slice (win0_3.rect t)).set ↔ _
  rw [View.set_slice_whole, Rect.mem_set_unit]
  exact Iff.rfl

/-- Image row `n` is in the block of point ⌊n / 8⌋. -/
theorem cover (i : S28x28x64x512.Idx) : ∃ t : Fin cfg0.N, (cfg0.win 3).flush t = true ∧ i ∈ ((cfg0.win 3).blk t).view.set := by
  have hi0 : (i 0).val < 28 := (i 0).isLt
  have hi1 : (i 1).val < 28 := (i 1).isLt
  have hi2 : (i 2).val < 64 := (i 2).isLt
  have hi3 : (i 3).val < 512 := (i 3).isLt
  have hN : grid0.N = 8 := N_0
  obtain ⟨t, htv⟩ : ∃ t : Fin cfg0.N, t.val = (i 2).val / 8 := ⟨⟨(i 2).val / 8, by show (i 2).val / 8 < grid0.N; omega⟩, rfl⟩
  obtain ⟨-, -, -, -, -, -, -, -, e0, e1, e2, e3⟩ := idx_facts t
  refine ⟨t, flush0_3 t, ?_⟩
  rw [mem_blk3]
  intro a
  match a with
  | ⟨0, _⟩ => show win0_3.index t (0 : Fin 4) * 28 ≤ (i 0).val ∧ (i 0).val < win0_3.index t (0 : Fin 4) * 28 + 28; omega
  | ⟨1, _⟩ => show win0_3.index t (1 : Fin 4) * 28 ≤ (i 1).val ∧ (i 1).val < win0_3.index t (1 : Fin 4) * 28 + 28; omega
  | ⟨2, _⟩ => show win0_3.index t (2 : Fin 4) * 8 ≤ (i 2).val ∧ (i 2).val < win0_3.index t (2 : Fin 4) * 8 + 8; omega
  | ⟨3, _⟩ => show win0_3.index t (3 : Fin 4) * 512 ≤ (i 3).val ∧ (i 3).val < win0_3.index t (3 : Fin 4) * 512 + 512; omega

/-- THE REGION'S OUTPUT ARRAY after every write-back is `result`. -/
theorem final3 (c : Dev nD) : (dats m 0 c).arrAt 3 cfg0.N = result m c :=
  (dats m 0 c).arrAt_eq_of_cover 3 (result m c) (fun t _ => flushed_eq m c t) cover

end Cert.KernelIdeal.KValue

end
-- ==== Proof.KernelRun.lean ====
/-
  The kernel's run, read: the result buffer ends at the excitation gate applied to the arguments.

  The region leaves its output array at the specification's result with the spatial axes first; the one
  transposition after the region puts the image and channel axes back in front, so the result buffer holds the
  specification's result itself. The three arguments are written by no line of the program and end as launched.
-/
import proofs.«121475_g2000605780834191_pallasbulk_681_8_alg».proof.Proof.Gen.KernelIdeal.Frame
import proofs.«121475_g2000605780834191_pallasbulk_681_8_alg».proof.Proof.Gate
import proofs.«121475_g2000605780834191_pallasbulk_681_8_alg».proof.Proof.KernelLayout
import proofs.«121475_g2000605780834191_pallasbulk_681_8_alg».proof.Proof.KernelHost
import proofs.«121475_g2000605780834191_pallasbulk_681_8_alg».proof.Proof.KernelBlocks
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- The specification with the spatial axes first, transposed back, is the specification. -/
theorem transpose_outT (x : FVec Ideal SEGate.SX .f32) (w1 : FVec Ideal SEGate.SW1 .f32) (w2 : FVec Ideal SEGate.SW2 .f32)
    (h : S28x28x64x512.Transposes [2, 3, 0, 1] S64x512x28x28) :
    transpose S64x512x28x28 [2, 3, 0, 1] (outT x w1 w2) h = SEGate.out x w1 w2 := by
  funext i
  obtain ⟨n, ch, p, q, rfl⟩ : ∃ (n : Fin 64) (ch : Fin 512) (p q : Fin 28), i = ix4 n ch p q := ⟨i 0, i 1, i 2, i 3, eq_ix4 i⟩
  exact SEGate.Layout.transpose_2301_apply (outT x w1 w2) h n ch p q

/-- The result buffer after the lines that follow the region. -/
theorem tail_value (m : (ℓ : Loc nD τ sig) → Buf (Elt Ideal) ℓ) (c : Dev nD) :
    Pipeline.afterTail₀ cfgs (dats m) 0 (V0 m) [hostOps1] c main_v4
      = SEGate.out (m ((c : Thread nD τ).loc main_arg0)) (m ((c : Thread nD τ).loc main_arg1)) (m ((c : Thread nD τ).loc main_arg2)) := by
  rw [tail_v4, final3]
  exact transpose_outT _ _ _ _

/-- THE KERNEL'S RUN: every weakly fair execution terminates with the result buffer at the gate applied to the
    launch contents of the arguments, and the arguments as launched. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
          = SEGate.out (m ((c.tc : Thread _ _).loc Cert.KernelIdeal.main_arg0)) (m ((c.tc : Thread _ _).loc Cert.KernelIdeal.main_arg1)) (m ((c.tc : Thread _ _).loc Cert.KernelIdeal.main_arg2))
        ∧ r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2)) :=
  (θ_run defs _ _).mono (fun _ h c =>
      ⟨((h c).2 main_v4 (Pipeline.mem_restRefs_of main_v4 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.RefPayload.lean ====
/-
  What the reference's kernel body stores, read at an index, over the extended reals.

  The body loads a block `x` of five images (channels × flattened pixels), the two weight matrices already
  transposed (`w1t` is [512, 32], `w2t` is [32, 512]), and stores
  `x[b, c, s] * gate_b(c)`, where the gate of row `b` is computed from that row's pooled sums alone:
  `pooled[b, c] = (∑ s, x[b, c, s]) * invHW`, `hid[b, j] = max (∑ c, pooled[b, c] * w1t[c, j]) 0`,
  `gate[b, c] = logistic (∑ j, hid[b, j] * w2t[j, c])`.
  Each stage is read at an index separately; the last lemma puts them together. Row `b` of the stored value
  depends on row `b` of the block only (`pay_congr_row`).
-/
import proofs.«121475_g2000605780834191_pallasbulk_681_8_alg».proof.Proof.Gen.ReferenceIdeal.Skeleton
import proofs.«121475_g2000605780834191_pallasbulk_681_8_alg».proof.Proof.Gate
import Idealize.ShloMosaic.Lib.ValueIdx
import Idealize.ShloMosaic.Lib.Pipeline.Value
import Idealize.ShloMosaic.PureOps.Ideal.Laws

noncomputable section

open scoped BigOperators

namespace Cert.ReferenceIdeal.RefPayload

open Idealize.ShloMosaic Idealize.ShloMosaic.ValueIdx Cert.ReferenceIdeal Cert.ReferenceIdeal.Gen

/-! ## The two matrix products at an index -/

/-- The first product's dimension numbers: [5, 512] · [512, 32], contracting the 512. -/
abbrev D1 : DotDims S5x512 S512x32 S5x32 := dot_S5x512_S512x32_S5x32_1_0_0_1_n_n
/-- The second's: [5, 32] · [32, 512], contracting the 32. -/
abbrev D2 : DotDims S5x32 S32x512 S5x512 := dot_S5x32_S32x512_S5x512_1_0_0_1_n_n

theorem d1_lhs0 (i : S5x32.Idx) (q : D1.contr.Idx) : (D1.lhsIdx i q 0).val = (i 0).val := by
  unfold DotDims.lhsIdx
  rw [dif_neg (show ¬(0 : Fin S5x512.rank) ∈ D1.lhsBatch by decide), dif_pos (show (0 : Fin S5x512.rank) ∈ D1.lhsNonContracting by decide)]
  rfl
theorem d1_lhs1 (i : S5x32.Idx) (q : D1.contr.Idx) : (D1.lhsIdx i q 1).val = (q ⟨0, by decide⟩).val :=
  D1.lhsIdx_val_of_single rfl i q
theorem d1_rhs0 (i : S5x32.Idx) (q : D1.contr.Idx) : (D1.rhsIdx i q 0).val = (q ⟨0, by decide⟩).val :=
  D1.rhsIdx_val_of_single rfl i q
theorem d1_rhs1 (i : S5x32.Idx) (q : D1.contr.Idx) : (D1.rhsIdx i q 1).val = (i 1).val := by
  unfold DotDims.rhsIdx
  rw [dif_neg (show ¬(1 : Fin S512x32.rank) ∈ D1.rhsBatch by decide), dif_pos (show (1 : Fin S512x32.rank) ∈ D1.rhsNonContracting by decide)]
  rfl

/-- Row `b`, column `j` of the first product into a zero accumulator: the sum over the 512 channels. -/
theorem dot1_apply (l : FVec Ideal S5x512 .f32) (r : FVec Ideal S512x32 .f32) (b : Fin 5) (j : Fin 32) :
    matmul (F := Ideal) D1 none l r (constant S5x32 .f32 0x00000000#32) (ix2 b j) = ∑ k : Fin 512, l (ix2 b k) * r (ix2 k j) := by
  refine (Ideal.matmul_constant_zero_apply D1 none l r (ix2 b j)).trans ?_
  rw [← Equiv.sum_comp (contrEquiv1 D1 512 rfl rfl).symm]
  refine Finset.sum_congr rfl fun k _ => ?_
  have hk := contrEquiv1_symm_val D1 512 rfl rfl k
  have el : D1.lhsIdx (ix2 b j) ((contrEquiv1 D1 512 rfl rfl).symm k) = ix2 b k := funext fun a => Fin.ext (by
    match a with
    | ⟨0, _⟩ => exact d1_lhs0 _ _
    | ⟨1, _⟩ => exact (d1_lhs1 _ _).trans hk)
  have er : D1.rhsIdx (ix2 b j) ((contrEquiv1 D1 512 rfl rfl).symm k) = ix2 k j := funext fun a => Fin.ext (by
    match a with
    | ⟨0, _⟩ => exact (d1_rhs0 _ _).trans hk
    | ⟨1, _⟩ => exact d1_rhs1 _ _)
  rw [el, er]

theorem d2_lhs0 (i : S5x512.Idx) (q : D2.contr.Idx) : (D2.lhsIdx i q 0).val = (i 0).val := by
  unfold DotDims.lhsIdx
  rw [dif_neg (show ¬(0 : Fin S5x32.rank) ∈ D2.lhsBatch by decide), dif_pos (show (0 : Fin S5x32.rank) ∈ D2.lhsNonContracting by decide)]
  rfl
theorem d2_lhs1 (i : S5x512.Idx) (q : D2.contr.Idx) : (D2.lhsIdx i q 1).val = (q ⟨0, by decide⟩).val :=
  D2.lhsIdx_val_of_single rfl i q
theorem d2_rhs0 (i : S5x512.Idx) (q : D2.contr.Idx) : (D2.rhsIdx i q 0).val = (q ⟨0, by decide⟩).val :=
  D2.rhsIdx_val_of_single rfl i q
theorem d2_rhs1 (i : S5x512.Idx) (q : D2.contr.Idx) : (D2.rhsIdx i q 1).val = (i 1).val := by
  unfold DotDims.rhsIdx
  rw [dif_neg (show ¬(1 : Fin S32x512.rank) ∈ D2.rhsBatch by decide), dif_pos (show (1 : Fin S32x512.rank) ∈ D2.rhsNonContracting by decide)]
  rfl

/-- Row `b`, column `c` of the second product into a zero accumulator: the sum over the 32 hidden units. -/
theorem dot2_apply (l : FVec Ideal S5x32 .f32) (r : FVec Ideal S32x512 .f32) (b : Fin 5) (c : Fin 512) :
    matmul (F := Ideal) D2 none l r (constant S5x512 .f32 0x00000000#32) (ix2 b c) = ∑ k : Fin 32, l (ix2 b k) * r (ix2 k c) := by
  refine (Ideal.matmul_constant_zero_apply D2 none l r (ix2 b c)).trans ?_
  rw [← Equiv.sum_comp (contrEquiv1 D2 32 rfl rfl).symm]
  refine Finset.sum_congr rfl fun k _ => ?_
  have hk := contrEquiv1_symm_val D2 32 rfl rfl k
  have el : D2.lhsIdx (ix2 b c) ((contrEquiv1 D2 32 rfl rfl).symm k) = ix2 b k := funext fun a => Fin.ext (by
    match a with
    | ⟨0, _⟩ => exact d2_lhs0 _ _
    | ⟨1, _⟩ => exact (d2_lhs1 _ _).trans hk)
  have er : D2.rhsIdx (ix2 b c) ((contrEquiv1 D2 32 rfl rfl).symm k) = ix2 k c := funext fun a => Fin.ext (by
    match a with
    | ⟨0, _⟩ => exact (d2_rhs0 _ _).trans hk
    | ⟨1, _⟩ => exact d2_rhs1 _ _)
  rw [el, er]

/-! ## The stages of the body's value -/

/-- The pooled means as the body computes them: the lane sum of the block, times the literal. -/
def pooledV (x0 : FVec Ideal S5x512x784 .f32) : FVec Ideal S5x512 .f32 :=
  mulf (multiReduction .add [2] S5x512 (shapeCast S5x512x784 x0 shapeCasts_S5x512x784_S5x512x784) 0x00000000#32 reduces_S5x512x784_S5x512 (.inl rfl) rfl)
    (broadcast S5x512 (Scalar.ofBits .f32 0x3AA72F05#32))

/-- The rectified hidden units. -/
def hidV (x0 : FVec Ideal S5x512x784 .f32) (x1 : FVec Ideal S512x32 .f32) : FVec Ideal S5x32 .f32 :=
  maximumf (matmul D1 none (pooledV x0) (shapeCast S512x32 x1 shapeCasts_S512x32_S512x32) (constant S5x32 .f32 0x00000000#32))
    (broadcast S5x32 (Scalar.ofBits .f32 0x00000000#32))

/-- The gates. -/
def gateV (x0 : FVec Ideal S5x512x784 .f32) (x1 : FVec Ideal S512x32 .f32) (x2 : FVec Ideal S32x512 .f32) : FVec Ideal S5x512 .f32 :=
  logistic (matmul D2 none (hidV x0 x1) (shapeCast S32x512 x2 shapeCasts_S32x512_S32x512) (constant S5x512 .f32 0x00000000#32))

/-- The stored value is the block times the gates spread along the pixels (the printed term, regrouped). -/
theorem pay_eq (x0 : FVec Ideal S5x512x784 .f32) (x1 : FVec Ideal S512x32 .f32) (x2 : FVec Ideal S32x512 .f32) (x3 : FVec Ideal S5x512x784 .f32) :
    k0_pay1 (F := Ideal) x0 x1 x2 x3
      = mulf (shapeCast S5x512x784 x3 shapeCasts_S5x512x784_S5x512x784)
          (broadcastTo S5x512x784 (shapeCast S5x512x1 (gateV x0 x1 x2) shapeCasts_S5x512_S5x512x1) broadcasts_S5x512x1_S5x512x784) := rfl

/-- The inserted index of the lane sum: (b, c) with pixel `k` put back on the last axis. -/
theorem lift_eq (b : Fin 5) (c : Fin 512) (k : Fin 784) :
    (reduces_S5x512x784_S5x512 : S5x512x784.Reduces [2] S5x512).lift (ix2 b c) k = ix3 b c k :=
  funext fun a => Fin.ext (by
    match a with
    | ⟨0, _⟩ => rfl
    | ⟨1, _⟩ => rfl
    | ⟨2, _⟩ => rfl)

theorem pooledV_apply (x0 : FVec Ideal S5x512x784 .f32) (b : Fin 5) (c : Fin 512) :
    pooledV x0 (ix2 b c) = (∑ s : Fin 784, x0 (ix3 b c s)) * SEGate.invHW := by
  show (multiReduction .add [2] S5x512 (shapeCast S5x512x784 x0 shapeCasts_S5x512x784_S5x512x784) 0x00000000#32 reduces_S5x512x784_S5x512 (.inl rfl) rfl) (ix2 b c)
      * Ideal.ofBits .f32 0x3AA72F05#32 = _
  refine congrArg (· * Ideal.ofBits .f32 0x3AA72F05#32) ?_
  refine (Ideal.multiReduction_add_single _ 0x00000000#32 reduces_S5x512x784_S5x512 (.inl rfl) rfl (ix2 b c)).trans ?_
  refine Finset.sum_congr rfl fun k _ => ?_
  rw [shapeCast_self]
  exact congrArg x0 (lift_eq b c k)

theorem hidV_apply (x0 : FVec Ideal S5x512x784 .f32) (x1 : FVec Ideal S512x32 .f32) (b : Fin 5) (j : Fin 32) :
    hidV x0 x1 (ix2 b j) = max (∑ c : Fin 512, pooledV x0 (ix2 b c) * x1 (ix2 c j)) 0 := by
  show max (matmul (F := Ideal) D1 none (pooledV x0) (shapeCast S512x32 x1 shapeCasts_S512x32_S512x32) (constant S5x32 .f32 0x00000000#32) (ix2 b j))
      (Ideal.ofBits .f32 0x00000000#32) = _
  rw [dot1_apply, shapeCast_self, Ideal.ofBits_zero_f32]

theorem gateV_apply (x0 : FVec Ideal S5x512x784 .f32) (x1 : FVec Ideal S512x32 .f32) (x2 : FVec Ideal S32x512 .f32) (b : Fin 5) (c : Fin 512) :
    gateV x0 x1 x2 (ix2 b c) = Ideal.logistic (∑ j : Fin 32, hidV x0 x1 (ix2 b j) * x2 (ix2 j c)) := by
  show Ideal.logistic (matmul (F := Ideal) D2 none (hidV x0 x1) (shapeCast S32x512 x2 shapeCasts_S32x512_S32x512) (constant S5x512 .f32 0x00000000#32) (ix2 b c)) = _
  rw [dot2_apply, shapeCast_self]

/-- A [5, 512] matrix viewed as [5, 512, 1] and spread along 784 pixels reads (b, c) at (b, c, s). -/
theorem spread_apply (g : FVec Ideal S5x512 .f32) (b : Fin 5) (c : Fin 512) (s : Fin 784) :
    broadcastTo S5x512x784 (shapeCast S5x512x1 g shapeCasts_S5x512_S5x512x1) broadcasts_S5x512x1_S5x512x784 (ix3 b c s) = g (ix2 b c) := by
  refine (broadcastTo_apply _ broadcasts_S5x512x1_S5x512x784 (ix3 b c s) (ix3 b c (0 : Fin 1)) fun a => ?_).trans ?_
  · match a with
    | ⟨0, _⟩ => rfl
    | ⟨1, _⟩ => rfl
    | ⟨2, _⟩ => rfl
  · refine shapeCast_apply g shapeCasts_S5x512_S5x512x1 (ix3 b c (0 : Fin 1)) (ix2 b c) ?_
    rw [Shape.rowMajor_val_two, Shape.rowMajor_val_three]
    show b.val * 512 + c.val = (b.val * 512 + c.val) * 1 + 0
    omega

/-! ## The stored value at an index -/

/-- The gate of a row from its pooled SUMS, over the TRANSPOSED weights as the body holds them. -/
def rowGate (r : Fin 512 → EReal) (w1t : FVec Ideal S512x32 .f32) (w2t : FVec Ideal S32x512 .f32) (c : Fin 512) : EReal :=
  Ideal.logistic (∑ j : Fin 32, max (∑ c' : Fin 512, (r c' * SEGate.invHW) * w1t (ix2 c' j)) 0 * w2t (ix2 j c))

/-- The stored value at (b, c, s): the block there times the gate of row `b`'s pooled sums. -/
theorem pay_apply (x0 : FVec Ideal S5x512x784 .f32) (x1 : FVec Ideal S512x32 .f32) (x2 : FVec Ideal S32x512 .f32) (x3 : FVec Ideal S5x512x784 .f32)
    (b : Fin 5) (c : Fin 512) (s : Fin 784) :
    k0_pay1 (F := Ideal) x0 x1 x2 x3 (ix3 b c s)
      = x3 (ix3 b c s) * rowGate (fun c' => ∑ s' : Fin 784, x0 (ix3 b c' s')) x1 x2 c := by
  rw [pay_eq]
  show (shapeCast S5x512x784 x3 shapeCasts_S5x512x784_S5x512x784) (ix3 b c s)
      * broadcastTo S5x512x784 (shapeCast S5x512x1 (gateV x0 x1 x2) shapeCasts_S5x512_S5x512x1) broadcasts_S5x512x1_S5x512x784 (ix3 b c s) = _
  rw [shapeCast_self, spread_apply, gateV_apply]
  unfold rowGate
  refine congrArg (fun z => x3 (ix3 b c s) * Ideal.logistic z) ?_
  refine Finset.sum_congr rfl fun j _ => ?_
  rw [hidV_apply]
  refine congrArg (fun z => max z 0 * x2 (ix2 j c)) ?_
  refine Finset.sum_congr rfl fun c' _ => ?_
  rw [pooledV_apply]

/-- Row `b` of the stored value depends on row `b` of the two loaded copies of the block only. -/
theorem pay_congr_row (x0 y0 : FVec Ideal S5x512x784 .f32) (x1 : FVec Ideal S512x32 .f32) (x2 : FVec Ideal S32x512 .f32)
    (b : Fin 5) (h : ∀ (c : Fin 512) (s : Fin 784), x0 (ix3 b c s) = y0 (ix3 b c s)) (c : Fin 512) (s : Fin 784) :
    k0_pay1 (F := Ideal) x0 x1 x2 x0 (ix3 b c s) = k0_pay1 (F := Ideal) y0 x1 x2 y0 (ix3 b c s) := by
  rw [pay_apply, pay_apply, h c s]
  refine congrArg (fun r => y0 (ix3 b c s) * rowGate r x1 x2 c) ?_
  funext c'
  exact Finset.sum_congr rfl fun s' _ => h c' s'

end Cert.ReferenceIdeal.RefPayload

end
-- ==== Proof.RefBody.lean ====
/-
  The reference's one pallas_call, point by point.

  The grid has thirteen points; point `t` takes images 5t … 5t+4, so the last point's block has ONE row past the
  array's sixty-four images. What that row of the staging buffer holds after the fetch is anything (`d`), and what
  the body computes from it into the result's buffer is anything too: the write-back moves only the rows inside
  the array. So the proof data states the buffers on the rows inside the array: after the body at point `t` the
  input's buffer holds its block filled out with zeros (`xfull`), and the result's buffer what the body stores
  from THAT (`out0_3` of it); the body obligation then asks, of both, only the part the transfers move. It holds
  because a row of what the body stores depends on the same row of the block alone
  (`RefPayload.pay_congr_row`): whatever filled the block out, the rows inside the array come out the same.
  The two weight windows are whole arrays fetched once.
-/
import proofs.«121475_g2000605780834191_pallasbulk_681_8_alg».proof.Proof.Gen.ReferenceIdeal.Frame
import proofs.«121475_g2000605780834191_pallasbulk_681_8_alg».proof.Proof.Gen.ReferenceIdeal.Skeleton
import proofs.«121475_g2000605780834191_pallasbulk_681_8_alg».proof.Proof.RefPayload
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.RefBody

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The body's accesses and what it stores -/

abbrev r0_0 : Rect S5x512x784 := Rect.unit (s := S5x512x784) ![0, 0, 0] S5x512x784.size inb_S5x512x784_S5x512x784_0_0_0
abbrev r0_1 : Rect S512x32 := Rect.unit (s := S512x32) ![0, 0] S512x32.size inb_S512x32_S512x32_0_0
abbrev r0_2 : Rect S32x512 := Rect.unit (s := S32x512) ![0, 0] S32x512.size inb_S32x512_S32x512_0_0

section AnyFloat
variable {F : FTy → Type} [FloatOps F]

local notation "𝕄" => MT nD τ sig Unit (Elt F) ℕ (UR sig nD τ) ℕ

/-- The result's staging buffer after the body, from the three input buffers: its one whole store (the block is
    loaded twice, once for the pooled sums and once to be scaled). -/
def out0_3 (x0 : Vec F S5x512x784 .f32) (x1 : Vec F S512x32 .f32) (x2 : Vec F S32x512 .f32) : Vec F S5x512x784 .f32 :=
  View.canon [⟨r0_0, k0_pay1 (View.ld x0 r0_0) (View.ld x1 r0_1) (View.ld x2 r0_2) (View.ld x0 r0_0)⟩]

/-- That store covers the buffer. -/
theorem cover0_3 (p0 : Vec F S5x512x784 .f32) (y : S5x512x784.Idx) :
    ∃ pc ∈ ([⟨r0_0, p0⟩] : List (View.Piece (Elt F) S5x512x784 .f32)), y ∈ pc.1.set :=
  View.cover_of_tiled [⟨r0_0, p0⟩] S5x512x784.size (by rfl) y

theorem hz3 : (![0, 0, 0] : Fin 3 → Nat) = fun _ => 0 := funext fun a => by fin_cases a <;> rfl
theorem hz2 : (![0, 0] : Fin 2 → Nat) = fun _ => 0 := funext fun a => by fin_cases a <;> rfl

/-- The accesses are whole: the result's buffer holds the stored value of the buffers' contents. -/
theorem out0_3_eq (x0 : Vec F S5x512x784 .f32) (x1 : Vec F S512x32 .f32) (x2 : Vec F S32x512 .f32) :
    out0_3 x0 x1 x2 = k0_pay1 x0 x1 x2 x0 := by
  unfold out0_3
  rw [View.canon_unit_zero hz3]
  simp only [View.ld_unit_zero (S := S5x512x784) hz3, View.ld_unit_zero (S := S512x32) hz2, View.ld_unit_zero (S := S32x512) hz2]

set_option maxHeartbeats 1000000 in
/-- The body on whole staging memrefs, the inputs' at contents `xW` and the result's at anything, runs to the
    continuation holding the inputs' as they were and the result's at `out0_3` of them. -/
theorem sound_kernel (c : Dev nD) (E : Set ℕ) (i : grid0.Coords) (arg1 : Memref sig .tc .vmem S5x512x784 .f32) (harg1 : arg1.IsWhole) (arg2 : Memref sig .tc .vmem S512x32 .f32) (harg2 : arg2.IsWhole) (arg3 : Memref sig .tc .vmem S32x512 .f32) (harg3 : arg3.IsWhole) (arg4 : Memref sig .tc .vmem S5x512x784 .f32) (harg4 : arg4.IsWhole)
    (x0 : Vec F S5x512x784 .f32) (x1 : Vec F S512x32 .f32) (x2 : Vec F S32x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__se_kernel_single i arg1 harg1 arg2 harg2 arg3 harg3 arg4 harg4) K := by
  simp only [cc0__se_kernel_single_eq_skeleton]; unfold cc0__se_kernel_single_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end AnyFloat

/-! ## The proof data, at the extended reals -/

local notation "𝕄" => MT nD τ sig Unit (Elt Ideal) ℕ (UR sig nD τ) ℕ

variable (m : (ℓ : Loc nD τ sig) → Buf (Elt Ideal) ℓ) (ρ : Dev nD → PrngReg)

/-- The input block at point `t`, its rows inside the array, filled out to the whole buffer with zeros. -/
def xfull (c : Dev nD) (t : Fin cfg0.N) : S5x512x784.Idx → Elt Ideal .f32 :=
  win0_0.fill (grid0.coords t) (fun _ => (0 : EReal)) (iblk m c 0 t)

/-- The proof data of the pipeline on core `c`: the arrays as the region finds them; after the body at point `t`
    the input's buffer at `xfull`, the weights' at their (whole) blocks, the result's at what the body stores from
    those; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => out0_3 (xfull m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (xfull m c t) (iblk m c 1 t) (iblk m c 2 t) := by dsimp only [dats]

/-- The input's buffer, fetched at every point, holds its block on the rows inside the array and `d` elsewhere. -/
theorem before0_0 (c : Dev nD) (t : Fin cfg0.N) (d) :
    (dats m 0 c).before 0 t d = win0_0.fill (grid0.coords t) d (iblk m c 0 t) := by
  rw [(dats m 0 c).before_fetched 0 t (fetch0_0 t)]
  unfold Dat.fetched Dat.blockOf iblk
  rw [A_eq]
/-- The weights' buffers hold their blocks at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- The result's buffer, written back at every point, holds anything. -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## Rows inside the array do not see what fills the block out -/

/-- On an index the fetch moves, the filled-out block is the block, whatever filled it out. -/
theorem fill_indep (t : Fin cfg0.N) (d d' : S5x512x784.Idx → Elt Ideal .f32) (g) (j : S5x512x784.Idx)
    (hm : win0_0.moved (grid0.coords t) j = true) :
    win0_0.fill (grid0.coords t) d g j = win0_0.fill (grid0.coords t) d' g j := by
  unfold Window.fill; rw [dif_pos hm, dif_pos hm]

/-- Only the image axis is cut: channels and pixels are moved whole. -/
theorem xsize_1 : ∀ t : Fin cfg0.N, win0_0.xsize (grid0.coords t) 1 = 512 :=
  (by decide +kernel : ∀ t : Fin grid0.N, win0_0.xsize (grid0.coords t) 1 = 512)
theorem xsize_2 : ∀ t : Fin cfg0.N, win0_0.xsize (grid0.coords t) 2 = 784 :=
  (by decide +kernel : ∀ t : Fin grid0.N, win0_0.xsize (grid0.coords t) 2 = 784)

/-- What the body stores, on the rows the write-back moves, is the same whatever filled the input block out. -/
theorem cut_out_indep (c : Dev nD) (t : Fin cfg0.N) (d0 : S5x512x784.Idx → Elt Ideal .f32)
    (x1 : Vec Ideal S512x32 .f32) (x2 : Vec Ideal S32x512 .f32) :
    win0_3.cut (grid0.coords t) (out0_3 (win0_0.fill (grid0.coords t) d0 (iblk m c 0 t)) x1 x2)
      = win0_3.cut (grid0.coords t) (out0_3 (xfull m c t) x1 x2) := by
  funext j
  show out0_3 (win0_0.fill (grid0.coords t) d0 (iblk m c 0 t)) x1 x2 (win0_3.xinj (grid0.coords t) j)
      = out0_3 (xfull m c t) x1 x2 (win0_3.xinj (grid0.coords t) j)
  rw [out0_3_eq, out0_3_eq]
  have hb : (j 0).val < win0_0.xsize (grid0.coords t) 0 := (j 0).isLt
  have hc : (j 1).val < 512 := by have h := (j 1).isLt; have e := xsize_1 t; exact lt_of_lt_of_eq h e
  have hs : (j 2).val < 784 := by have h := (j 2).isLt; have e := xsize_2 t; exact lt_of_lt_of_eq h e
  have hb5 : (j 0).val < 5 := lt_of_lt_of_le hb (win0_0.xsize_le (grid0.coords t) 0)
  have hj : win0_3.xinj (grid0.coords t) j = ix3 (⟨(j 0).val, hb5⟩ : Fin 5) (⟨(j 1).val, hc⟩ : Fin 512) (⟨(j 2).val, hs⟩ : Fin 784) :=
    funext fun a => Fin.ext (by
      match a with
      | ⟨0, _⟩ => rfl
      | ⟨1, _⟩ => rfl
      | ⟨2, _⟩ => rfl)
  rw [hj]
  refine RefPayload.pay_congr_row _ _ x1 x2 _ (fun c' s' => ?_) _ _
  refine fill_indep t d0 _ _ _ ((win0_0.moved_iff _ _).mpr fun a => ?_)
  match a with
  | ⟨0, _⟩ => exact hb
  | ⟨1, _⟩ => exact lt_of_lt_of_eq c'.isLt (xsize_1 t).symm
  | ⟨2, _⟩ => exact lt_of_lt_of_eq s'.isLt (xsize_2 t).symm

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the two cut windows' buffers stated on the part their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point: the input's buffer arrives as its block filled out with some `d`, the weights' as their
    blocks; the body leaves them and stores into the result's buffer; on the rows the transfers move these are the
    proof data's contents (`cut_out_indep`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel (F := Ideal) c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (xfull m c t) = iblk m c 0 t from win0_0.cut_fill _ _ _]
    iexact H0
  isplitl [H1]; · iexact H1
  isplitl [H2]; · iexact H2
  iexists out0_3 (win0_0.fill (grid0.coords t) d0 (iblk m c 0 t)) (iblk m c 1 t) (iblk m c 2 t)
  rw [win0_3.fill_congr_cut (grid0.coords t) (cut_out_indep m c t d0 (iblk m c 1 t) (iblk m c 2 t))]
  iexact H3

/-- The library's body obligation, at every point, in the form that states a cut window on its moved part. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the three argument arrays end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.RefBody

end
-- ==== Proof.RefValue.lean ====
/-
  The reference's result array after the region, as ONE function of the arrays the region finds.

  The region finds the input flattened to [64, 512, 784] (`xf`) and the two weight matrices transposed. Point `t`
  writes back rows 5t … of `gated xf w1t w2t`, where `gated` scales each entry by its row's gate; the thirteen
  blocks cover the sixty-four rows (the last one cut to four), so the array ends holding `gated` everywhere.
-/
import proofs.«121475_g2000605780834191_pallasbulk_681_8_alg».proof.Proof.RefBody

set_option maxRecDepth 16384

noncomputable section

open scoped BigOperators

namespace Cert.ReferenceIdeal.RefValue

open Cert.ReferenceIdeal Cert.ReferenceIdeal.Gen Cert.ReferenceIdeal.RefBody
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- Every entry of the flattened input scaled by the gate of its image's pooled sums (weights transposed). -/
def gated (xf : FVec Ideal S64x512x784 .f32) (w1t : FVec Ideal S512x32 .f32) (w2t : FVec Ideal S32x512 .f32) :
    FVec Ideal S64x512x784 .f32 :=
  fun i => xf i * RefPayload.rowGate (fun c' => ∑ s' : Fin 784, xf (ix3 (i 0) c' s')) w1t w2t (i 1)

theorem gated_apply (xf : FVec Ideal S64x512x784 .f32) (w1t : FVec Ideal S512x32 .f32) (w2t : FVec Ideal S32x512 .f32)
    (b : Fin 64) (c : Fin 512) (s : Fin 784) :
    gated xf w1t w2t (ix3 b c s) = xf (ix3 b c s) * RefPayload.rowGate (fun c' => ∑ s' : Fin 784, xf (ix3 b c' s')) w1t w2t c := rfl

/-! ## The printed index maps, decided over the grid -/

/-- Point `t`'s input and result blocks start at image 5t and take every channel and pixel; the block is cut to the
    images inside the array: five, but four at the last point. -/
theorem idx_facts : ∀ t : Fin cfg0.N,
    win0_0.index t (0 : Fin 3) = t.val ∧ win0_0.index t (1 : Fin 3) = 0 ∧ win0_0.index t (2 : Fin 3) = 0
    ∧ win0_3.index t (0 : Fin 3) = t.val ∧ win0_3.index t (1 : Fin 3) = 0 ∧ win0_3.index t (2 : Fin 3) = 0
    ∧ win0_0.xsize (grid0.coords t) (0 : Fin 3) = (if t.val = 12 then 4 else 5)
    ∧ win0_3.xsize (grid0.coords t) (0 : Fin 3) = (if t.val = 12 then 4 else 5)
    ∧ win0_3.xsize (grid0.coords t) (1 : Fin 3) = 512 ∧ win0_3.xsize (grid0.coords t) (2 : Fin 3) = 784
    ∧ t.val < 13 :=
  (by decide +kernel : ∀ t : Fin grid0.N, _)

/-- The weight windows are the whole arrays at every point. -/
theorem idx_facts_w : ∀ t : Fin cfg0.N,
    win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

/-! ## The blocks, read off the arrays -/

theorem iblk1_eq (c : Dev nD) (t : Fin cfg0.N) : (iblk m c 1 t : S512x32.Idx → EReal) = V m c main_v0 := by
  obtain ⟨e0, e1, -, -⟩ := idx_facts_w t
  funext y
  show V m c main_v0 (((cfg0.win 1).blk t).view.emb y) = V m c main_v0 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 32 + 1 * (y 1).val = (y 1).val; omega

theorem iblk2_eq (c : Dev nD) (t : Fin cfg0.N) : (iblk m c 2 t : S32x512.Idx → EReal) = V m c main_v1 := by
  obtain ⟨-, -, e0, e1⟩ := idx_facts_w t
  funext y
  show V m c main_v1 (((cfg0.win 2).blk t).view.emb y) = V m c main_v1 y
  refine congrArg _ (funext fun a => Fin.ext ?_)
  match a with
  | ⟨0, _⟩ => show win0_2.index t (0 : Fin 2) * 32 + 1 * (y 0).val = (y 0).val; omega
  | ⟨1, _⟩ => show win0_2.index t (1 : Fin 2) * 512 + 1 * (y 1).val = (y 1).val; omega

/-- Row `b` of the filled-out input block at point `t`, when inside the array, is image `5t + b` of the input. -/
theorem xfull_row (c : Dev nD) (t : Fin cfg0.N) (b : Fin 5) (hb : b.val < win0_0.xsize (grid0.coords t) 0)
    (B : Fin 64) (hB : B.val = 5 * t.val + b.val) (c' : Fin 512) (s' : Fin 784) :
    xfull m c t (ix3 b c' s') = V m c main_v2 (ix3 B c' s') := by
  have hm : win0_0.moved (grid0.coords t) (ix3 b c' s') = true := (win0_0.moved_iff _ _).mpr fun a => by
    match a with
    | ⟨0, _⟩ => exact hb
    | ⟨1, _⟩ => exact lt_of_lt_of_eq c'.isLt (xsize_1 t).symm
    | ⟨2, _⟩ => exact lt_of_lt_of_eq s'.isLt (xsize_2 t).symm
  obtain ⟨e0, e1, e2, -⟩ := idx_facts t
  unfold xfull Window.fill
  rw [dif_pos hm]
  show V m c main_v2 (((cfg0.win 0).blk t).view.emb _) = V m c main_v2 (ix3 B c' s')
  refine congrArg _ (funext fun a => Fin.ext ?_)
  match a with
  | ⟨0, _⟩ => show win0_0.index t (0 : Fin 3) * 5 + 1 * b.val = B.val; omega
  | ⟨1, _⟩ => show win0_0.index t (1 : Fin 3) * 512 + 1 * c'.val = c'.val; omega
  | ⟨2, _⟩ => show win0_0.index t (2 : Fin 3) * 784 + 1 * s'.val = s'.val; omega

/-! ## What a point writes back -/

/-- Point `t` writes back block `t` of `gated` of the arrays the region finds. -/
theorem flushed3_eq (c : Dev nD) (t : Fin cfg0.N) :
    (dats m 0 c).flushed 3 t = ((cfg0.win 3).blk t).view.read (Elt Ideal) (gated (V m c main_v2) (V m c main_v0) (V m c main_v1)) := by
  show (cfg0.win 3).cut (grid0.coords t) ((dats m 0 c).after 3 t) = _
  rw [after0_3, out0_3_eq, iblk1_eq, iblk2_eq]
  obtain ⟨e0, e1, e2, f0, f1, f2, x0, x3, x31, x32, ht⟩ := idx_facts t
  funext j
  have hb3 : (j 0).val < win0_3.xsize (grid0.coords t) 0 := (j 0).isLt
  have hb : (j 0).val < win0_0.xsize (grid0.coords t) 0 := by rw [x0]; rw [x3] at hb3; exact hb3
  have hc : (j 1).val < 512 := lt_of_lt_of_eq (j 1).isLt x31
  have hs : (j 2).val < 784 := lt_of_lt_of_eq (j 2).isLt x32
  have hb5 : (j 0).val < 5 := lt_of_lt_of_le hb (win0_0.xsize_le (grid0.coords t) 0)
  have hB : 5 * t.val + (j 0).val < 64 := by rw [x0] at hb; split at hb <;> omega
  have hj : win0_3.xinj (grid0.coords t) j = ix3 (⟨(j 0).val, hb5⟩ : Fin 5) (⟨(j 1).val, hc⟩ : Fin 512) (⟨(j 2).val, hs⟩ : Fin 784) :=
    funext fun a => Fin.ext (by
      match a with
      | ⟨0, _⟩ => rfl
      | ⟨1, _⟩ => rfl
      | ⟨2, _⟩ => rfl)
  have he : ((cfg0.win 3).blk t).view.emb j = ix3 (⟨5 * t.val + (j 0).val, hB⟩ : Fin 64) (⟨(j 1).val, hc⟩ : Fin 512) (⟨(j 2).val, hs⟩ : Fin 784) :=
    funext fun a => Fin.ext (by
      match a with
      | ⟨0, _⟩ => show win0_3.index t (0 : Fin 3) * 5 + 1 * (j 0).val = 5 * t.val + (j 0).val; omega
      | ⟨1, _⟩ => show win0_3.index t (1 : Fin 3) * 512 + 1 * (j 1).val = (j 1).val; omega
      | ⟨2, _⟩ => show win0_3.index t (2 : Fin 3) * 784 + 1 * (j 2).val = (j 2).val; omega)
  show k0_pay1 (F := Ideal) (xfull m c t) (V m c main_v0) (V m c main_v1) (xfull m c t) (win0_3.xinj (grid0.coords t) j)
      = gated (V m c main_v2) (V m c main_v0) (V m c main_v1) (((cfg0.win 3).blk t).view.emb j)
  rw [hj, he, RefPayload.pay_apply, gated_apply]
  simp only [xfull_row m c t ⟨(j 0).val, hb5⟩ hb ⟨5 * t.val + (j 0).val, hB⟩ rfl]

/-! ## The cover and the final array -/

/-- An index of the array is in point `t`'s block iff each coordinate is in the block's (cut) range on its axis. -/
theorem mem_blk3 (t : Fin cfg0.N) (i : S64x512x784.Idx) :
    i ∈ ((cfg0.win 3).blk t).view.set ↔ ∀ a : Fin 3, win0_3.index t a * S5x512x784.size a ≤ (i a).val
      ∧ (i a).val < win0_3.index t a * S5x512x784.size a + win0_3.xsize (grid0.coords t) a := by
  show i ∈ ((View.whole main_v3).slice (win0_3.rect t)).set ↔ _
  rw [View.set_slice_whole, Rect.mem_set_unit]
  exact Iff.rfl

/-- Image `b` is in the block of point `b / 5`. -/
theorem cover3 (i : S64x512x784.Idx) : ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 784 := (i 2).isLt
  have hN : cfg0.N = 13 := N_0
  let t : Fin cfg0.N := ⟨(i 0).val / 5, by rw [hN]; omega⟩
  have htv : t.val = (i 0).val / 5 := rfl
  obtain ⟨-, -, -, f0, f1, f2, -, x3, x31, x32, -⟩ := idx_facts t
  refine ⟨t, flush0_3 t, ?_⟩
  rw [mem_blk3]
  intro a
  match a with
  | ⟨0, _⟩ =>
    show win0_3.index t (0 : Fin 3) * 5 ≤ (i 0).val ∧ (i 0).val < win0_3.index t (0 : Fin 3) * 5 + win0_3.xsize (grid0.coords t) (0 : Fin 3)
    rw [x3, f0]; split <;> omega
  | ⟨1, _⟩ =>
    show win0_3.index t (1 : Fin 3) * 512 ≤ (i 1).val ∧ (i 1).val < win0_3.index t (1 : Fin 3) * 512 + win0_3.xsize (grid0.coords t) (1 : Fin 3)
    rw [x31, f1]; omega
  | ⟨2, _⟩ =>
    show win0_3.index t (2 : Fin 3) * 784 ≤ (i 2).val ∧ (i 2).val < win0_3.index t (2 : Fin 3) * 784 + win0_3.xsize (grid0.coords t) (2 : Fin 3)
    rw [x32, f2]; omega

/-- The result's array after the region: `gated` of the arrays the region finds, everywhere. -/
theorem final3 (c : Dev nD) :
    (dats m 0 c).arrAt 3 cfg0.N = gated (V m c main_v2) (V m c main_v0) (V m c main_v1) :=
  (dats m 0 c).arrAt_eq_of_cover 3 _ (fun t _ => flushed3_eq m c t) cover3

end Cert.ReferenceIdeal.RefValue

end
-- ==== Proof.RefRun.lean ====
/-
  The reference's run, read: its result is `SEGate.out` of the three argument arrays.

  Before the region @main transposes the two weight matrices and flattens the input's 28 × 28 pixels to 784
  (row-major: pixel (h, w) is 28h + w); after it, it unflattens the region's result. The region's result is
  `RefValue.gated` of those arrays. Reading the flattening through the bijection (h, w) ↦ 28h + w, the sum over the
  784 flattened pixels is the double sum over rows and columns (a re-indexing of a finite sum: no finiteness of the
  summands is used), a transposed weight read at (c, j) is the weight at (j, c), and the unflattened result at
  (b, c, h, w) is the flattened one at (b, c, 28h + w): together `SEGate.out`.
-/
import proofs.«121475_g2000605780834191_pallasbulk_681_8_alg».proof.Proof.RefValue
import Idealize.ShloMosaic.Lib.ValueLayout
import Idealize.ShloMosaic.Lib.StableHlo.Run

set_option maxRecDepth 16384

noncomputable section

open scoped BigOperators

namespace Cert.ReferenceIdeal.RefRun

open Cert.ReferenceIdeal Cert.ReferenceIdeal.Gen Cert.ReferenceIdeal.RefBody Cert.ReferenceIdeal.RefValue
open Idealize.ShloMosaic Idealize.ShloMosaic.TcCoe Idealize.ShloMosaic.ValueIdx
open Idealize.SL.Sem
open Idealize.ShloMosaic.Pipeline (Dat Cfg Window)

/-! ## Flattening the pixels -/

/-- Pixel (h, w) of a 28 × 28 image is entry 28h + w of its flattening. -/
def flatEquiv : Fin 28 × Fin 28 ≃ Fin 784 where
  toFun p := ⟨28 * p.1.val + p.2.val, by have := p.1.isLt; have := p.2.isLt; omega⟩
  invFun s := (⟨s.val / 28, by have := s.isLt; omega⟩, ⟨s.val % 28, Nat.mod_lt _ (by decide)⟩)
  left_inv p := by
    obtain ⟨⟨h, hh⟩, ⟨w, hw⟩⟩ := p
    refine Prod.ext (Fin.ext ?_) (Fin.ext ?_)
    · show (28 * h + w) / 28 = h; omega
    · show (28 * h + w) % 28 = w; omega
  right_inv s := Fin.ext (by show 28 * (s.val / 28) + s.val % 28 = s.val; omega)

theorem flatEquiv_val (h w : Fin 28) : (flatEquiv (h, w)).val = 28 * h.val + w.val := rfl

/-- A sum over the flattened pixels is the double sum over rows and columns. -/
theorem sum_flat (f : Fin 784 → EReal) : ∑ s : Fin 784, f s = ∑ h : Fin 28, ∑ w : Fin 28, f (flatEquiv (h, w)) := by
  rw [← Equiv.sum_comp flatEquiv f, Fintype.sum_prod_type]

/-- The flattened input at (b, c, 28h + w) is the input at (b, c, h, w). -/
theorem flat_apply (x : FVec Ideal S64x512x28x28 .f32) (b : Fin 64) (c : Fin 512) (h w : Fin 28) :
    shapeCast S64x512x784 x shapeCasts_S64x512x28x28_S64x512x784 (ix3 b c (flatEquiv (h, w))) = x (ix4 b c h w) := by
  refine shapeCast_apply x shapeCasts_S64x512x28x28_S64x512x784 (ix3 b c (flatEquiv (h, w))) (ix4 b c h w) ?_
  rw [Shape.rowMajor_val_four, Shape.rowMajor_val_three]
  show ((b.val * 512 + c.val) * 28 + h.val) * 28 + w.val = (b.val * 512 + c.val) * 784 + (28 * h.val + w.val)
  omega

/-- The unflattened array at (b, c, h, w) is the flat one at (b, c, 28h + w). -/
theorem unflat_apply (y : FVec Ideal S64x512x784 .f32) (b : Fin 64) (c : Fin 512) (h w : Fin 28) :
    shapeCast S64x512x28x28 y shapeCasts_S64x512x784_S64x512x28x28 (ix4 b c h w) = y (ix3 b c (flatEquiv (h, w))) := by
  refine shapeCast_apply y shapeCasts_S64x512x784_S64x512x28x28 (ix4 b c h w) (ix3 b c (flatEquiv (h, w))) ?_
  rw [Shape.rowMajor_val_four, Shape.rowMajor_val_three]
  show (b.val * 512 + c.val) * 784 + (28 * h.val + w.val) = ((b.val * 512 + c.val) * 28 + h.val) * 28 + w.val
  omega

/-- The gate over the transposed weights is the gate over the weights. -/
theorem rowGate_transposed (r : Fin 512 → EReal) (w1 : FVec Ideal S32x512 .f32) (w2 : FVec Ideal S512x32 .f32) (c : Fin 512) :
    RefPayload.rowGate r (transpose S512x32 [1, 0] w1 transposes_S32x512_S512x32_1_0) (transpose S32x512 [1, 0] w2 transposes_S512x32_S32x512_1_0) c
      = SEGate.gate r w1 w2 c := by
  have e1 : ∀ (c' : Fin 512) (j : Fin 32),
      transpose S512x32 [1, 0] w1 transposes_S32x512_S512x32_1_0 (ix2 c' j) = w1 (ix2 j c') :=
    fun c' j => transpose_ix2_apply w1 transposes_S32x512_S512x32_1_0 c' j
  have e2 : ∀ (j : Fin 32) (c : Fin 512),
      transpose S32x512 [1, 0] w2 transposes_S512x32_S32x512_1_0 (ix2 j c) = w2 (ix2 c j) :=
    fun j c => transpose_ix2_apply w2 transposes_S512x32_S32x512_1_0 j c
  unfold RefPayload.rowGate SEGate.gate SEGate.hidden
  simp only [e1, e2]

/-- Flatten, gate over transposed weights, unflatten: the squeeze-and-excitation of the arguments. -/
theorem unflat_gated (x : FVec Ideal S64x512x28x28 .f32) (w1 : FVec Ideal S32x512 .f32) (w2 : FVec Ideal S512x32 .f32) :
    shapeCast S64x512x28x28
        (gated (shapeCast S64x512x784 x shapeCasts_S64x512x28x28_S64x512x784)
          (transpose S512x32 [1, 0] w1 transposes_S32x512_S512x32_1_0) (transpose S32x512 [1, 0] w2 transposes_S512x32_S32x512_1_0))
        shapeCasts_S64x512x784_S64x512x28x28
      = SEGate.out x w1 w2 := by
  funext i
  obtain ⟨b, c, h, w, rfl⟩ : ∃ (b : Fin 64) (c : Fin 512) (h : Fin 28) (w : Fin 28), i = ix4 b c h w := ⟨i 0, i 1, i 2, i 3, eq_ix4 i⟩
  rw [unflat_apply, gated_apply, flat_apply, SEGate.out_apply, rowGate_transposed]
  refine congrArg (fun r => x (ix4 b c h w) * SEGate.gate r w1 w2 c) ?_
  funext c'
  rw [sum_flat]
  unfold SEGate.pool
  exact Finset.sum_congr rfl fun h' _ => Finset.sum_congr rfl fun w' _ => flat_apply x b c' h' w'

/-! ## The arrays the region finds, and the line after it -/

variable (m : (ℓ : Loc nD τ sig) → Buf (Elt Ideal) ℓ) (ρ : Dev nD → PrngReg)

theorem V_v0 (c : Dev nD) : (V m c main_v0 : S512x32.Idx → EReal)
    = transpose S512x32 [1, 0] (m ((c : Thread nD τ).loc main_arg1)) transposes_S32x512_S512x32_1_0 := by
  show StableHlo.after hostOps0 (fun b => m (c, b)) (Proc.devRef .tc main_v0) = _
  after_results

theorem V_v1 (c : Dev nD) : (V m c main_v1 : S32x512.Idx → EReal)
    = transpose S32x512 [1, 0] (m ((c : Thread nD τ).loc main_arg2)) transposes_S512x32_S32x512_1_0 := by
  show StableHlo.after hostOps0 (fun b => m (c, b)) (Proc.devRef .tc main_v1) = _
  after_results

theorem V_v2 (c : Dev nD) : (V m c main_v2 : S64x512x784.Idx → EReal)
    = shapeCast S64x512x784 (m ((c : Thread nD τ).loc main_arg0)) shapeCasts_S64x512x28x28_S64x512x784 := by
  show StableHlo.after hostOps0 (fun b => m (c, b)) (Proc.devRef .tc main_v2) = _
  after_results
  rfl

/-- The result buffer after the line that follows the region. -/
theorem result_eq (c : Dev nD) :
    Pipeline.afterTail₀ cfgs (dats m) 0 (V0 m) [hostOps1] c main_v4
      = SEGate.out (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  rw [Pipeline.withArrays_arr spec0 launch0.win.arr_inj c _ _ 3]
  rw [final3, V_v2, V_v0, V_v1]
  exact unflat_gated _ _ _

/-! ## The run -/

/-- Every weakly fair execution of the reference terminates with its result at `SEGate.out` of the arguments and
    the arguments as launched. -/
theorem run : θ_run defs (onTc (τ := τ) (main (F := Ideal))) ⟨m, fun _ => 0, ρ⟩ (fun r => ∀ c : Dev nD,
      r.2.mem ((c.tc : Thread nD τ).loc main_v4)
        = SEGate.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.RefRun

end
-- ==== Proof.lean ====
/-
  The certificate: a fused squeeze-and-excitation gate, two tilings of it, one function.

  Both programs scale every entry x[b, c, h, w] of the input by a gate that depends on the image b and the channel c:
  the spatial sums of image b, times the f32 word both programs use for 1/784, through the first weight matrix and
  a rectifier, through the second weight matrix and the logistic function (`SEGate.out`, Proof/Gate.lean). The
  kernel works on the input transposed to put the spatial axes first, eight images per grid point, and sums over the
  two spatial axes; the reference works on the input with its pixels flattened, five images per grid point — thirteen
  points, the last block overhanging the sixty-four images by one row — and sums over the flattened axis. At the
  extended reals both end with `SEGate.out` of the arguments: the same word for 1/784 on both sides is never
  evaluated, a sum over 784 flattened pixels is the double sum over rows and columns, a transposed weight is the
  weight read across, and the overhanging row never reaches the rows inside the array because a row of the stored
  block depends on the same row of the loaded block alone. No finiteness of the inputs is used: only re-indexing of
  finite sums.

  The three frames: the kernel's two are the generated class-A frames; the reference's is its run
  (Proof/RefBody.lean), its body obligation stated on the part of the cut blocks that the transfers move.
  The ideal pass rewrote nothing, so the idealization claim is trivial.
-/
import proofs.«121475_g2000605780834191_pallasbulk_681_8_alg».proof.Defs
import proofs.«121475_g2000605780834191_pallasbulk_681_8_alg».proof.Proof.Gen.Kernel
import proofs.«121475_g2000605780834191_pallasbulk_681_8_alg».proof.Proof.Gen.Kernel.Frame
import proofs.«121475_g2000605780834191_pallasbulk_681_8_alg».proof.Proof.Gen.KernelIdeal
import proofs.«121475_g2000605780834191_pallasbulk_681_8_alg».proof.Proof.Gen.KernelIdeal.Frame
import proofs.«121475_g2000605780834191_pallasbulk_681_8_alg».proof.Proof.Gen.ReferenceIdeal
import proofs.«121475_g2000605780834191_pallasbulk_681_8_alg».proof.Proof.Gen.Pre_finite_inputs
import proofs.«121475_g2000605780834191_pallasbulk_681_8_alg».proof.Proof.KernelRun
import proofs.«121475_g2000605780834191_pallasbulk_681_8_alg».proof.Proof.RefRun

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefBody.frame m ρ

/-- The ideal pass rewrote no operation. -/
theorem preserves : Cert.preserves_Kernel_KernelIdeal := trivial

/-- From memories agreeing on the arguments both idealized programs end with `SEGate.out` of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ?_) (Cert.ReferenceIdeal.RefRun.run m' ρ')
  obtain ⟨h4, h0, h1, h2⟩ := h c
  refine ⟨?_, h0, h1, h2⟩
  rw [h4, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
